-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x3 : Shape := ⟨2, ![4000000, 3]⟩
abbrev S4000000x4 : Shape := ⟨2, ![4000000, 4]⟩
abbrev S_ : Shape := ⟨0, ![]⟩
abbrev S4000000 : Shape := ⟨1, ![4000000]⟩

class Facts : Prop where
  bcast_S_S4000000x3 : S_.BroadcastsInDim S4000000x3 (![] : Fin 0 → Fin S4000000x3.rank)
  reducesTo_S4000000x3_S_d0_1 : S4000000x3.ReducesTo [0, 1] S_
  h_S_ : 0 < S_.numel
  bcast_S_S4000000x4 : S_.BroadcastsInDim S4000000x4 (![] : Fin 0 → Fin S4000000x4.rank)
  reducesTo_S4000000x4_S_d0_1 : S4000000x4.ReducesTo [0, 1] S_
  reducesTo_S4000000x4_S4000000_d1 : S4000000x4.ReducesTo [1] S4000000
  bcast_S_S4000000 : S_.BroadcastsInDim S4000000 (![] : Fin 0 → Fin S4000000.rank)
  reducesTo_S4000000_S_d0 : S4000000.ReducesTo [0] S_

variable [Facts]

def fn {F : FTy → Type} [FloatOps F] (main_arg0 : FVec F S4000000x3 .f32) (main_arg1 : FVec F S4000000x4 .f32) : IVec S_ 1 :=
  let main_v0 : FVec F S4000000x3 .f32 := Host.absf main_arg0
  let main_cst : FVec F S_ .f32 := constant S_ .f32 0x7F800000#32
  let main_v1 : FVec F S4000000x3 .f32 := broadcastInDim S4000000x3 ![] bcast_S_S4000000x3 main_cst
  let main_v2 : IVec S4000000x3 1 := cmpf .olt main_v0 main_v1
  let main_c : IVec S_ 1 := constantI S_ 1 1#1
  let main_v3 : IVec S_ 1 := (fun x v => Host.reduce IntOp.andi x v reducesTo_S4000000x3_S_d0_1 h_S_) main_v2 main_c
  let main_v4 : FVec F S4000000x4 .f32 := Host.absf main_arg1
  let main_cst_0 : FVec F S_ .f32 := constant S_ .f32 0x7F800000#32
  let main_v5 : FVec F S4000000x4 .f32 := broadcastInDim S4000000x4 ![] bcast_S_S4000000x4 main_cst_0
  let main_v6 : IVec S4000000x4 1 := cmpf .olt main_v4 main_v5
  let main_c_1 : IVec S_ 1 := constantI S_ 1 1#1
  let main_v7 : IVec S_ 1 := (fun x v => Host.reduce IntOp.andi x v reducesTo_S4000000x4_S_d0_1 h_S_) main_v6 main_c_1
  let main_v8 : IVec S_ 1 := andi main_v3 main_v7
  let main_v9 : FVec F S4000000x4 .f32 := mulf main_arg1 main_arg1
  let main_cst_2 : FVec F S_ .f32 := constant S_ .f32 0x00000000#32
  let main_v10 : FVec F S4000000 .f32 := (fun x v => Host.reduceAdd x v reducesTo_S4000000x4_S4000000_d1 h_S_) main_v9 main_cst_2
  let main_cst_3 : FVec F S_ .f32 := constant S_ .f32 0x00000000#32
  let main_v11 : FVec F S4000000 .f32 := broadcastInDim S4000000 ![] bcast_S_S4000000 main_cst_3
  let main_v12 : IVec S4000000 1 := cmpf .ogt main_v10 main_v11
  let main_c_4 : IVec S_ 1 := constantI S_ 1 1#1
  let main_v13 : IVec S_ 1 := (fun x v => Host.reduce IntOp.andi x v reducesTo_S4000000_S_d0 h_S_) main_v12 main_c_4
  let main_v14 : IVec S_ 1 := andi main_v8 main_v13
  main_v14
-- ==== Kernel.lean ====
abbrev S4000000x3 : Shape := ⟨2, ![4000000, 3]⟩
abbrev S4000000x4 : Shape := ⟨2, ![4000000, 4]⟩
abbrev S3x4000000 : Shape := ⟨2, ![3, 4000000]⟩
abbrev S4x4000000 : Shape := ⟨2, ![4, 4000000]⟩
abbrev S6x4000000 : Shape := ⟨2, ![6, 4000000]⟩
abbrev S3x160000 : Shape := ⟨2, ![3, 160000]⟩
abbrev S4x160000 : Shape := ⟨2, ![4, 160000]⟩
abbrev S6x160000 : Shape := ⟨2, ![6, 160000]⟩
abbrev S160000 : Shape := ⟨1, ![160000]⟩
abbrev S1x160000 : Shape := ⟨2, ![1, 160000]⟩
abbrev S4000000x6 : Shape := ⟨2, ![4000000, 6]⟩

abbrev nBuf : Space → Nat
  | .hbm => 6
  | .vmem => 6
  | .smem => 0
  | _ => 0

abbrev bufTy : (tb : Table) → Fin (tcTables nBuf tb) → BufTy
  | .hbm, ⟨0, _⟩ => ⟨S4000000x3, .f32⟩
  | .hbm, ⟨1, _⟩ => ⟨S4000000x4, .f32⟩
  | .hbm, ⟨2, _⟩ => ⟨S3x4000000, .f32⟩
  | .hbm, ⟨3, _⟩ => ⟨S4x4000000, .f32⟩
  | .hbm, ⟨4, _⟩ => ⟨S6x4000000, .f32⟩
  | .hbm, ⟨5, _⟩ => ⟨S4000000x6, .f32⟩
  | .local _ .vmem, ⟨0, _⟩ => ⟨S3x160000, .f32⟩
  | .local _ .vmem, ⟨1, _⟩ => ⟨S3x160000, .f32⟩
  | .local _ .vmem, ⟨2, _⟩ => ⟨S4x160000, .f32⟩
  | .local _ .vmem, ⟨3, _⟩ => ⟨S4x160000, .f32⟩
  | .local _ .vmem, ⟨4, _⟩ => ⟨S6x160000, .f32⟩
  | .local _ .vmem, ⟨5, _⟩ => ⟨S6x160000, .f32⟩
  | _, _ => ⟨S4000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x160000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x160000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6x160000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S4000000x3_S3x4000000_1_0 : S4000000x3.Transposes [1, 0] S3x4000000
  transposes_S4000000x4_S4x4000000_1_0 : S4000000x4.Transposes [1, 0] S4x4000000
  inb_S3x160000_S3x160000_0_0 : ∀ a, (![0, 0] : Fin 2 → Nat) a + S3x160000.size a ≤ S3x160000.size a
  h_S3x160000 : 0 < S3x160000.numel
  shapeCasts_S3x160000_S3x160000 : S3x160000.ShapeCasts S3x160000
  inb_S4x160000_S4x160000_0_0 : ∀ a, (![0, 0] : Fin 2 → Nat) a + S4x160000.size a ≤ S4x160000.size a
  h_S4x160000 : 0 < S4x160000.numel
  shapeCasts_S4x160000_S4x160000 : S4x160000.ShapeCasts S4x160000
  reduces_S4x160000_S160000 : S4x160000.Reduces [0] S160000
  shapeCasts_S160000_S1x160000 : S160000.ShapeCasts S1x160000
  broadcasts_S1x160000_S4x160000 : S1x160000.Broadcasts S4x160000
  slices_S4x160000_o0_0_S1x160000 : S4x160000.Slices ![0, 0] S1x160000
  shapeCasts_S1x160000_S160000 : S1x160000.ShapeCasts S160000
  slices_S4x160000_o1_0_S1x160000 : S4x160000.Slices ![1, 0] S1x160000
  slices_S4x160000_o2_0_S1x160000 : S4x160000.Slices ![2, 0] S1x160000
  slices_S4x160000_o3_0_S1x160000 : S4x160000.Slices ![3, 0] S1x160000
  slices_S3x160000_o0_0_S1x160000 : S3x160000.Slices ![0, 0] S1x160000
  slices_S3x160000_o1_0_S1x160000 : S3x160000.Slices ![1, 0] S1x160000
  slices_S3x160000_o2_0_S1x160000 : S3x160000.Slices ![2, 0] S1x160000
  concatenates_S1x160000_S1x160000_S1x160000_S1x160000_S1x160000_S1x160000_S6x160000_d0 : Shape.Concatenates [S1x160000, S1x160000, S1x160000, S1x160000, S1x160000, S1x160000] S6x160000 0
  inb_S6x160000_S6x160000_0_0 : ∀ a, (![0, 0] : Fin 2 → Nat) a + S6x160000.size a ≤ S6x160000.size a
  h_S6x160000 : 0 < S6x160000.numel
  transposes_S6x4000000_S4000000x6_1_0 : S6x4000000.Transposes [1, 0] S4000000x6
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x160000.size a ≤ S3x4000000.size a
  hwx0_0 : ∀ i : grid0.Coords, EltTy.bits .f32 = 32 ∨ (Rect.block (s := S3x4000000) S3x160000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x160000.size a ≤ S4x4000000.size a
  hwx0_1 : ∀ i : grid0.Coords, EltTy.bits .f32 = 32 ∨ (Rect.block (s := S4x4000000) S4x160000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6x160000.size a ≤ S6x4000000.size a
  hwx0_2 : ∀ i : grid0.Coords, EltTy.bits .f32 = 32 ∨ (Rect.block (s := S6x4000000) S6x160000.size (cc0_transform_2 i) (hinb0_2 i)).WholeWords (EltTy.packing .f32)

variable [Facts₀]

abbrev win0_0 : Pipeline.Window sig grid0 :=
  Pipeline.Window.ofSpec (Memref.whole main_v0) S3x160000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x160000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S6x160000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x3 : Shape := ⟨2, ![4000000, 3]⟩
abbrev S4000000x4 : Shape := ⟨2, ![4000000, 4]⟩
abbrev S_ : Shape := ⟨0, ![]⟩
abbrev S4000000 : Shape := ⟨1, ![4000000]⟩
abbrev S4000000x1 : Shape := ⟨2, ![4000000, 1]⟩
abbrev S4000000x9 : Shape := ⟨2, ![4000000, 9]⟩
abbrev S4000000x3x3 : Shape := ⟨3, ![4000000, 3, 3]⟩
abbrev S4000000x1x3 : Shape := ⟨3, ![4000000, 1, 3]⟩
abbrev S4000000x1x1 : Shape := ⟨3, ![4000000, 1, 1]⟩
abbrev S4000000x6 : Shape := ⟨2, ![4000000, 6]⟩

abbrev nBuf : Space → Nat
  | .hbm => 118
  | .vmem => 0
  | .smem => 0
  | _ => 0

abbrev bufTy : (tb : Table) → Fin (tcTables nBuf tb) → BufTy
  | .hbm, ⟨0, _⟩ => ⟨S4000000x3, .f32⟩
  | .hbm, ⟨1, _⟩ => ⟨S4000000x4, .f32⟩
  | .hbm, ⟨2, _⟩ => ⟨S4000000x3, .f32⟩
  | .hbm, ⟨3, _⟩ => ⟨S_, .f32⟩
  | .hbm, ⟨4, _⟩ => ⟨S4000000x3, .f32⟩
  | .hbm, ⟨5, _⟩ => ⟨S4000000x3, .f32⟩
  | .hbm, ⟨6, _⟩ => ⟨S4000000x4, .f32⟩
  | .hbm, ⟨7, _⟩ => ⟨S_, .f32⟩
  | .hbm, ⟨8, _⟩ => ⟨S4000000, .f32⟩
  | .hbm, ⟨9, _⟩ => ⟨S4000000x1, .f32⟩
  | .hbm, ⟨10, _⟩ => ⟨S4000000x1, .f32⟩
  | .hbm, ⟨11, _⟩ => ⟨S4000000x4, .f32⟩
  | .hbm, ⟨12, _⟩ => ⟨S4000000x4, .f32⟩
  | .hbm, ⟨13, _⟩ => ⟨S4000000x1, .f32⟩
  | .hbm, ⟨14, _⟩ => ⟨S4000000, .f32⟩
  | .hbm, ⟨15, _⟩ => ⟨S4000000x1, .f32⟩
  | .hbm, ⟨16, _⟩ => ⟨S4000000, .f32⟩
  | .hbm, ⟨17, _⟩ => ⟨S4000000x1, .f32⟩
  | .hbm, ⟨18, _⟩ => ⟨S4000000, .f32⟩
  | .hbm, ⟨19, _⟩ => ⟨S4000000x1, .f32⟩
  | .hbm, ⟨20, _⟩ => ⟨S4000000, .f32⟩
  | .hbm, ⟨21, _⟩ => ⟨S4000000, .f32⟩
  | .hbm, ⟨22, _⟩ => ⟨S4000000, .f32⟩
  | .hbm, ⟨23, _⟩ => ⟨S4000000, .f32⟩
  | .hbm, ⟨24, _⟩ => ⟨S_, .f32⟩
  | .hbm, ⟨25, _⟩ => ⟨S4000000, .f32⟩
  | .hbm, ⟨26, _⟩ => ⟨S4000000, .f32⟩
  | .hbm, ⟨27, _⟩ => ⟨S_, .f32⟩
  | .hbm, ⟨28, _⟩ => ⟨S4000000, .f32⟩
  | .hbm, ⟨29, _⟩ => ⟨S4000000, .f32⟩
  | .hbm, ⟨30, _⟩ => ⟨S4000000, .f32⟩
  | .hbm, ⟨31, _⟩ => ⟨S4000000, .f32⟩
  | .hbm, ⟨32, _⟩ => ⟨S4000000, .f32⟩
  | .hbm, ⟨33, _⟩ => ⟨S_, .f32⟩
  | .hbm, ⟨34, _⟩ => ⟨S4000000, .f32⟩
  | .hbm, ⟨35, _⟩ => ⟨S4000000, .f32⟩
  | .hbm, ⟨36, _⟩ => ⟨S4000000, .f32⟩
  | .hbm, ⟨37, _⟩ => ⟨S4000000, .f32⟩
  | .hbm, ⟨38, _⟩ => ⟨S4000000, .f32⟩
  | .hbm, ⟨39, _⟩ => ⟨S_, .f32⟩
  | .hbm, ⟨40, _⟩ => ⟨S4000000, .f32⟩
  | .hbm, ⟨41, _⟩ => ⟨S4000000, .f32⟩
  | .hbm, ⟨42, _⟩ => ⟨S4000000, .f32⟩
  | .hbm, ⟨43, _⟩ => ⟨S4000000, .f32⟩
  | .hbm, ⟨44, _⟩ => ⟨S4000000, .f32⟩
  | .hbm, ⟨45, _⟩ => ⟨S_, .f32⟩
  | .hbm, ⟨46, _⟩ => ⟨S4000000, .f32⟩
  | .hbm, ⟨47, _⟩ => ⟨S4000000, .f32⟩
  | .hbm, ⟨48, _⟩ => ⟨S4000000, .f32⟩
  | .hbm, ⟨49, _⟩ => ⟨S4000000, .f32⟩
  | .hbm, ⟨50, _⟩ => ⟨S4000000, .f32⟩
  | .hbm, ⟨51, _⟩ => ⟨S_, .f32⟩
  | .hbm, ⟨52, _⟩ => ⟨S4000000, .f32⟩
  | .hbm, ⟨53, _⟩ => ⟨S4000000, .f32⟩
  | .hbm, ⟨54, _⟩ => ⟨S_, .f32⟩
  | .hbm, ⟨55, _⟩ => ⟨S4000000, .f32⟩
  | .hbm, ⟨56, _⟩ => ⟨S4000000, .f32⟩
  | .hbm, ⟨57, _⟩ => ⟨S4000000, .f32⟩
  | .hbm, ⟨58, _⟩ => ⟨S4000000, .f32⟩
  | .hbm, ⟨59, _⟩ => ⟨S4000000, .f32⟩
  | .hbm, ⟨60, _⟩ => ⟨S_, .f32⟩
  | .hbm, ⟨61, _⟩ => ⟨S4000000, .f32⟩
  | .hbm, ⟨62, _⟩ => ⟨S4000000, .f32⟩
  | .hbm, ⟨63, _⟩ => ⟨S4000000, .f32⟩
  | .hbm, ⟨64, _⟩ => ⟨S4000000, .f32⟩
  | .hbm, ⟨65, _⟩ => ⟨S4000000, .f32⟩
  | .hbm, ⟨66, _⟩ => ⟨S_, .f32⟩
  | .hbm, ⟨67, _⟩ => ⟨S4000000, .f32⟩
  | .hbm, ⟨68, _⟩ => ⟨S4000000, .f32⟩
  | .hbm, ⟨69, _⟩ => ⟨S4000000, .f32⟩
  | .hbm, ⟨70, _⟩ => ⟨S4000000, .f32⟩
  | .hbm, ⟨71, _⟩ => ⟨S4000000, .f32⟩
  | .hbm, ⟨72, _⟩ => ⟨S_, .f32⟩
  | .hbm, ⟨73, _⟩ => ⟨S4000000, .f32⟩
  | .hbm, ⟨74, _⟩ => ⟨S4000000, .f32⟩
  | .hbm, ⟨75, _⟩ => ⟨S4000000, .f32⟩
  | .hbm, ⟨76, _⟩ => ⟨S4000000, .f32⟩
  | .hbm, ⟨77, _⟩ => ⟨S4000000, .f32⟩
  | .hbm, ⟨78, _⟩ => ⟨S_, .f32⟩
  | .hbm, ⟨79, _⟩ => ⟨S4000000, .f32⟩
  | .hbm, ⟨80, _⟩ => ⟨S4000000, .f32⟩
  | .hbm, ⟨81, _⟩ => ⟨S_, .f32⟩
  | .hbm, ⟨82, _⟩ => ⟨S4000000, .f32⟩
  | .hbm, ⟨83, _⟩ => ⟨S4000000, .f32⟩
  | .hbm, ⟨84, _⟩ => ⟨S4000000x1, .f32⟩
  | .hbm, ⟨85, _⟩ => ⟨S4000000x1, .f32⟩
  | .hbm, ⟨86, _⟩ => ⟨S4000000x1, .f32⟩
  | .hbm, ⟨87, _⟩ => ⟨S4000000x1, .f32⟩
  | .hbm, ⟨88, _⟩ => ⟨S4000000x1, .f32⟩
  | .hbm, ⟨89, _⟩ => ⟨S4000000x1, .f32⟩
  | .hbm, ⟨90, _⟩ => ⟨S4000000x1, .f32⟩
  | .hbm, ⟨91, _⟩ => ⟨S4000000x1, .f32⟩
  | .hbm, ⟨92, _⟩ => ⟨S4000000x1, .f32⟩
  | .hbm, ⟨93, _⟩ => ⟨S4000000x9, .f32⟩
  | .hbm, ⟨94, _⟩ => ⟨S4000000x3x3, .f32⟩
  | .hbm, ⟨95, _⟩ => ⟨S4000000x1x3, .f32⟩
  | .hbm, ⟨96, _⟩ => ⟨S4000000x3x3, .f32⟩
  | .hbm, ⟨97, _⟩ => ⟨S4000000x3x3, .f32⟩
  | .hbm, ⟨98, _⟩ => ⟨S4000000x3x3, .f32⟩
  | .hbm, ⟨99, _⟩ => ⟨S4000000x1x1, .f32⟩
  | .hbm, ⟨100, _⟩ => ⟨S4000000, .f32⟩
  | .hbm, ⟨101, _⟩ => ⟨S4000000x1x1, .f32⟩
  | .hbm, ⟨102, _⟩ => ⟨S4000000, .f32⟩
  | .hbm, ⟨103, _⟩ => ⟨S4000000x1x1, .f32⟩
  | .hbm, ⟨104, _⟩ => ⟨S4000000, .f32⟩
  | .hbm, ⟨105, _⟩ => ⟨S4000000x1x1, .f32⟩
  | .hbm, ⟨106, _⟩ => ⟨S4000000, .f32⟩
  | .hbm, ⟨107, _⟩ => ⟨S4000000x1x1, .f32⟩
  | .hbm, ⟨108, _⟩ => ⟨S4000000, .f32⟩
  | .hbm, ⟨109, _⟩ => ⟨S4000000x1x1, .f32⟩
  | .hbm, ⟨110, _⟩ => ⟨S4000000, .f32⟩
  | .hbm, ⟨111, _⟩ => ⟨S4000000x1, .f32⟩
  | .hbm, ⟨112, _⟩ => ⟨S4000000x1, .f32⟩
  | .hbm, ⟨113, _⟩ => ⟨S4000000x1, .f32⟩
  | .hbm, ⟨114, _⟩ => ⟨S4000000x1, .f32⟩
  | .hbm, ⟨115, _⟩ => ⟨S4000000x1, .f32⟩
  | .hbm, ⟨116, _⟩ => ⟨S4000000x1, .f32⟩
  | .hbm, ⟨117, _⟩ => ⟨S4000000x6, .f32⟩
  | _, _ => ⟨S4000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_9 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_10 : Ref sig .tc := ⟨.hbm, 78, rfl⟩
abbrev main_v61 : Ref sig .tc := ⟨.hbm, 79, rfl⟩
abbrev main_v62 : Ref sig .tc := ⟨.hbm, 80, rfl⟩
abbrev main_cst_11 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩

abbrev nD : Nat := 1
abbrev τ : Topo := Topo.v7x

variable {F : FTy → Type} [FloatOps F]

class Facts₀ : Prop where
  bcast_S_S4000000x3 : S_.BroadcastsInDim S4000000x3 (![] : Fin 0 → Fin S4000000x3.rank)
  reducesTo_S4000000x4_S4000000_d1 : S4000000x4.ReducesTo [1] S4000000
  h_S_ : 0 < S_.numel
  bcast_S4000000_S4000000x1_0 : S4000000.BroadcastsInDim S4000000x1 (![0] : Fin 1 → Fin S4000000x1.rank)
  bcast_S4000000x1_S4000000x4_0_1 : S4000000x1.BroadcastsInDim S4000000x4 (![0, 1] : Fin 2 → Fin S4000000x4.rank)
  slices_S4000000x4_S4000000x1_0_0 : S4000000x4.Slices ![0, 0] S4000000x1
  shapeCasts_S4000000x1_S4000000 : S4000000x1.ShapeCasts S4000000
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  bcast_S_S4000000 : S_.BroadcastsInDim S4000000 (![] : Fin 0 → Fin S4000000.rank)
  concatenates_S4000000x1_S4000000x1_S4000000x1_S4000000x1_S4000000x1_S4000000x1_S4000000x1_S4000000x1_S4000000x1_S4000000x9_d1 : Shape.Concatenates [S4000000x1, S4000000x1, S4000000x1, S4000000x1, S4000000x1, S4000000x1, S4000000x1, S4000000x1, S4000000x1] S4000000x9 1
  shapeCasts_S4000000x9_S4000000x3x3 : S4000000x9.ShapeCasts S4000000x3x3
  bcast_S4000000x3_S4000000x1x3_0_2 : S4000000x3.BroadcastsInDim S4000000x1x3 (![0, 2] : Fin 2 → Fin S4000000x1x3.rank)
  bcast_S4000000x1x3_S4000000x3x3_0_1_2 : S4000000x1x3.BroadcastsInDim S4000000x3x3 (![0, 1, 2] : Fin 3 → Fin S4000000x3x3.rank)
  slices_S4000000x3x3_S4000000x1x1_0_0_0 : S4000000x3x3.Slices ![0, 0, 0] S4000000x1x1
  shapeCasts_S4000000x1x1_S4000000 : S4000000x1x1.ShapeCasts S4000000
  slices_S4000000x3x3_S4000000x1x1_0_0_1 : S4000000x3x3.Slices ![0, 0, 1] S4000000x1x1
  slices_S4000000x3x3_S4000000x1x1_0_0_2 : S4000000x3x3.Slices ![0, 0, 2] S4000000x1x1
  slices_S4000000x3x3_S4000000x1x1_0_1_1 : S4000000x3x3.Slices ![0, 1, 1] S4000000x1x1
  slices_S4000000x3x3_S4000000x1x1_0_1_2 : S4000000x3x3.Slices ![0, 1, 2] S4000000x1x1
  slices_S4000000x3x3_S4000000x1x1_0_2_2 : S4000000x3x3.Slices ![0, 2, 2] S4000000x1x1
  concatenates_S4000000x1_S4000000x1_S4000000x1_S4000000x1_S4000000x1_S4000000x1_S4000000x6_d1 : Shape.Concatenates [S4000000x1, S4000000x1, S4000000x1, S4000000x1, S4000000x1, S4000000x1] S4000000x6 1
  dot_S4000000x3x3_S4000000x3x3_S4000000x3x3_2_2_1_1_0_0_wf : DotDims.WF S4000000x3x3 S4000000x3x3 S4000000x3x3 [2] [2] [1] [1] [0] [0]

variable [Facts₀]

def dot_S4000000x3x3_S4000000x3x3_S4000000x3x3_2_2_1_1_0_0 : DotDims S4000000x3x3 S4000000x3x3 S4000000x3x3 where
  lhsContracting := [2]
  rhsContracting := [2]
  lhsNonContracting := [1]
  rhsNonContracting := [1]
  lhsBatch := [0]
  rhsBatch := [0]
  wf := dot_S4000000x3x3_S4000000x3x3_S4000000x3x3_2_2_1_1_0_0_wf

class Facts : Prop extends Facts₀ where

variable [Facts]
-- ==== Proof.LibNaryResult.lean ====
/-
  The result of a host operation over a literal family of six or of nine operand references (a concatenation of six
  or nine arrays), with each operand's contents read at that operand's own reference instead of under a binder over
  the family's index: so stated, a fold over a line of operations goes on rewriting the operands' contents, where under
  the binder the reference is no literal and no result lemma applies to it.
-/
import Idealize.ShloMosaic.Lib.StableHlo.Run

noncomputable section

namespace Idealize.ShloMosaic.StableHlo

variable {τ : Topo} {sig : RefSig} {Val : EltTy → Type}
variable {x0 x1 x2 x3 x4 x5 x6 x7 x8 y : Ref sig .tc}

/-- A host operation over a LITERAL family of 6 operand references: its result with each operand's contents read at
    that operand's own reference. -/
theorem nary6_result
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (fun i => i.elim0))))))) := by
  rw [nary_result]; congr 1; funext k; fin_cases k <;> rfl
/-- The same, stated for the simplifier (the result reference un-indexed). -/
theorem nary6_result'
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (fun i => i.elim0))))))) :=
  nary6_result f hxs hy F

/-- A host operation over a LITERAL family of 9 operand references: its result with each operand's contents read at
    that operand's own reference. -/
theorem nary9_result
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) := by
  rw [nary_result]; congr 1; funext k; fin_cases k <;> rfl
/-- The same, stated for the simplifier (the result reference un-indexed). -/
theorem nary9_result'
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) :=
  nary9_result f hxs hy F

end Idealize.ShloMosaic.StableHlo

end
-- ==== Proof.RefFold.lean ====
/-
  The reference's run, evaluated: after its 116 host operations the result buffer holds the last stage of the
  read-at-an-index module applied to the two arguments.

  The library's run theorem leaves the result buffer at the FOLD of the operations' results over the launch contents.
  Evaluating the fold means: the contents of a buffer after a line of operations is the result function of the
  operation that writes it, applied to the contents of its operand buffers after the operations before it. Two of the
  operations are concatenations (of the nine rotation-matrix columns into [n, 9], and of the six covariance columns
  into [n, 6]); the line is cut there into four segments — 91 operations, the nine-way concatenation, 23 operations,
  the six-way concatenation — and each segment is evaluated from the facts the previous one established: the first
  from the launch contents (the nine columns, and the scales, as the read module's stages of the arguments); the
  nine-way concatenation from its nine operands; the third from that concatenation and the scales (the six covariance
  columns as stages); the last from its six operands.
-/
import proofs.«120002_j24979529793553_2_alg».proof.Proof.RefRun
import proofs.«120002_j24979529793553_2_alg».proof.Proof.RefRead
import proofs.«120002_j24979529793553_2_alg».proof.Proof.LibNaryResult

noncomputable section

namespace Cert.ReferenceIdeal.Fold

open Cert.ReferenceIdeal Cert.ReferenceIdeal.Gen Cert.ReferenceIdeal.Read Cert.ReferenceIdeal.Value
open Idealize.ShloMosaic Idealize.ShloMosaic.TcCoe Idealize.SL.Sem Idealize.ShloMosaic.StableHlo

variable {F : FTy → Type} [FloatOps F]

/-! ## The line of operations, cut at its two concatenations -/

/-- The first 91 operations: up to the nine rotation-matrix columns. -/
abbrev opsA : List (HloOp τ sig (Elt F)) :=
  [ unary main_arg0 main_v0 (Host.exp : (⟨S4000000x3, .f32⟩ : BufTy).Contents (Elt F) → (⟨S4000000x3, .f32⟩ : BufTy).Contents (Elt F)),
    nullary main_cst (constant S_ .f32 0x3F800000#32),
    unary main_cst main_v1 (broadcastInDim S4000000x3 ![] bcast_S_S4000000x3 : (⟨S_, .f32⟩ : BufTy).Contents (Elt F) → (⟨S4000000x3, .f32⟩ : BufTy).Contents (Elt F)),
    binary main_v1 main_v0 main_v2 (mulf : (⟨S4000000x3, .f32⟩ : BufTy).Contents (Elt F) → (⟨S4000000x3, .f32⟩ : BufTy).Contents (Elt F) → (⟨S4000000x3, .f32⟩ : BufTy).Contents (Elt F)),
    TRef.binary (TRef.of (T := ⟨S4000000x4, .f32⟩) main_arg1) (TRef.of (T := ⟨S4000000x4, .f32⟩) main_arg1) (TRef.of (T := ⟨S4000000x4, .f32⟩) main_call0_v0) mulf,
    TRef.nullary (TRef.of (T := ⟨S_, .f32⟩) main_call0_cst) (constant S_ .f32 0x00000000#32),
    TRef.binary (TRef.of (T := ⟨S4000000x4, .f32⟩) main_call0_v0) (TRef.of (T := ⟨S_, .f32⟩) main_call0_cst) (TRef.of (T := ⟨S4000000, .f32⟩) main_call0_v1) (fun x v => Host.reduceAdd x v reducesTo_S4000000x4_S4000000_d1 h_S_),
    TRef.unary (TRef.of (T := ⟨S4000000, .f32⟩) main_call0_v1) (TRef.of (T := ⟨S4000000x1, .f32⟩) main_call0_v2) (broadcastInDim S4000000x1 ![0] bcast_S4000000_S4000000x1_0),
    TRef.unary (TRef.of (T := ⟨S4000000x1, .f32⟩) main_call0_v2) (TRef.of (T := ⟨S4000000x1, .f32⟩) main_v3) Host.sqrt,
    unary main_v3 main_v4 (broadcastInDim S4000000x4 ![0, 1] bcast_S4000000x1_S4000000x4_0_1 : (⟨S4000000x1, .f32⟩ : BufTy).Contents (Elt F) → (⟨S4000000x4, .f32⟩ : BufTy).Contents (Elt F)),
    binary main_arg1 main_v4 main_v5 (Host.divf : (⟨S4000000x4, .f32⟩ : BufTy).Contents (Elt F) → (⟨S4000000x4, .f32⟩ : BufTy).Contents (Elt F) → (⟨S4000000x4, .f32⟩ : BufTy).Contents (Elt F)),
    unary main_v5 main_v6 ((extractStridedSlice S4000000x1 ![0, 0] · slices_S4000000x4_S4000000x1_0_0) : (⟨S4000000x4, .f32⟩ : BufTy).Contents (Elt F) → (⟨S4000000x1, .f32⟩ : BufTy).Contents (Elt F)),
    reshape main_v6 main_v7 rfl shapeCasts_S4000000x1_S4000000,
    unary main_v5 main_v8 ((extractStridedSlice S4000000x1 ![0, 1] · slices_S4000000x4_S4000000x1_0_1) : (⟨S4000000x4, .f32⟩ : BufTy).Contents (Elt F) → (⟨S4000000x1, .f32⟩ : BufTy).Contents (Elt F)),
    reshape main_v8 main_v9 rfl shapeCasts_S4000000x1_S4000000,
    unary main_v5 main_v10 ((extractStridedSlice S4000000x1 ![0, 2] · slices_S4000000x4_S4000000x1_0_2) : (⟨S4000000x4, .f32⟩ : BufTy).Contents (Elt F) → (⟨S4000000x1, .f32⟩ : BufTy).Contents (Elt F)),
    reshape main_v10 main_v11 rfl shapeCasts_S4000000x1_S4000000,
    unary main_v5 main_v12 ((extractStridedSlice S4000000x1 ![0, 3] · slices_S4000000x4_S4000000x1_0_3) : (⟨S4000000x4, .f32⟩ : BufTy).Contents (Elt F) → (⟨S4000000x1, .f32⟩ : BufTy).Contents (Elt F)),
    reshape main_v12 main_v13 rfl shapeCasts_S4000000x1_S4000000,
    binary main_v11 main_v11 main_v14 (mulf : (⟨S4000000, .f32⟩ : BufTy).Contents (Elt F) → (⟨S4000000, .f32⟩ : BufTy).Contents (Elt F) → (⟨S4000000, .f32⟩ : BufTy).Contents (Elt F)),
    binary main_v13 main_v13 main_v15 (mulf : (⟨S4000000, .f32⟩ : BufTy).Contents (Elt F) → (⟨S4000000, .f32⟩ : BufTy).Contents (Elt F) → (⟨S4000000, .f32⟩ : BufTy).Contents (Elt F)),
    binary main_v14 main_v15 main_v16 (addf : (⟨S4000000, .f32⟩ : BufTy).Contents (Elt F) → (⟨S4000000, .f32⟩ : BufTy).Contents (Elt F) → (⟨S4000000, .f32⟩ : BufTy).Contents (Elt F)),
    nullary main_cst_0 (constant S_ .f32 0x40000000#32),
    unary main_cst_0 main_v17 (broadcastInDim S4000000 ![] bcast_S_S4000000 : (⟨S_, .f32⟩ : BufTy).Contents (Elt F) → (⟨S4000000, .f32⟩ : BufTy).Contents (Elt F)),
    binary main_v17 main_v16 main_v18 (mulf : (⟨S4000000, .f32⟩ : BufTy).Contents (Elt F) → (⟨S4000000, .f32⟩ : BufTy).Contents (Elt F) → (⟨S4000000, .f32⟩ : BufTy).Contents (Elt F)),
    nullary main_cst_1 (constant S_ .f32 0x3F800000#32),
    unary main_cst_1 main_v19 (broadcastInDim S4000000 ![] bcast_S_S4000000 : (⟨S_, .f32⟩ : BufTy).Contents (Elt F) → (⟨S4000000, .f32⟩ : BufTy).Contents (Elt F)),
    binary main_v19 main_v18 main_v20 (subf : (⟨S4000000, .f32⟩ : BufTy).Contents (Elt F) → (⟨S4000000, .f32⟩ : BufTy).Contents (Elt F) → (⟨S4000000, .f32⟩ : BufTy).Contents (Elt F)),
    binary main_v9 main_v11 main_v21 (mulf : (⟨S4000000, .f32⟩ : BufTy).Contents (Elt F) → (⟨S4000000, .f32⟩ : BufTy).Contents (Elt F) → (⟨S4000000, .f32⟩ : BufTy).Contents (Elt F)),
    binary main_v7 main_v13 main_v22 (mulf : (⟨S4000000, .f32⟩ : BufTy).Contents (Elt F) → (⟨S4000000, .f32⟩ : BufTy).Contents (Elt F) → (⟨S4000000, .f32⟩ : BufTy).Contents (Elt F)),
    binary main_v21 main_v22 main_v23 (subf : (⟨S4000000, .f32⟩ : BufTy).Contents (Elt F) → (⟨S4000000, .f32⟩ : BufTy).Contents (Elt F) → (⟨S4000000, .f32⟩ : BufTy).Contents (Elt F)),
    nullary main_cst_2 (constant S_ .f32 0x40000000#32),
    unary main_cst_2 main_v24 (broadcastInDim S4000000 ![] bcast_S_S4000000 : (⟨S_, .f32⟩ : BufTy).Contents (Elt F) → (⟨S4000000, .f32⟩ : BufTy).Contents (Elt F)),
    binary main_v24 main_v23 main_v25 (mulf : (⟨S4000000, .f32⟩ : BufTy).Contents (Elt F) → (⟨S4000000, .f32⟩ : BufTy).Contents (Elt F) → (⟨S4000000, .f32⟩ : BufTy).Contents (Elt F)),
    binary main_v9 main_v13 main_v26 (mulf : (⟨S4000000, .f32⟩ : BufTy).Contents (Elt F) → (⟨S4000000, .f32⟩ : BufTy).Contents (Elt F) → (⟨S4000000, .f32⟩ : BufTy).Contents (Elt F)),
    binary main_v7 main_v11 main_v27 (mulf : (⟨S4000000, .f32⟩ : BufTy).Contents (Elt F) → (⟨S4000000, .f32⟩ : BufTy).Contents (Elt F) → (⟨S4000000, .f32⟩ : BufTy).Contents (Elt F)),
    binary main_v26 main_v27 main_v28 (addf : (⟨S4000000, .f32⟩ : BufTy).Contents (Elt F) → (⟨S4000000, .f32⟩ : BufTy).Contents (Elt F) → (⟨S4000000, .f32⟩ : BufTy).Contents (Elt F)),
    nullary main_cst_3 (constant S_ .f32 0x40000000#32),
    unary main_cst_3 main_v29 (broadcastInDim S4000000 ![] bcast_S_S4000000 : (⟨S_, .f32⟩ : BufTy).Contents (Elt F) → (⟨S4000000, .f32⟩ : BufTy).Contents (Elt F)),
    binary main_v29 main_v28 main_v30 (mulf : (⟨S4000000, .f32⟩ : BufTy).Contents (Elt F) → (⟨S4000000, .f32⟩ : BufTy).Contents (Elt F) → (⟨S4000000, .f32⟩ : BufTy).Contents (Elt F)),
    binary main_v9 main_v11 main_v31 (mulf : (⟨S4000000, .f32⟩ : BufTy).Contents (Elt F) → (⟨S4000000, .f32⟩ : BufTy).Contents (Elt F) → (⟨S4000000, .f32⟩ : BufTy).Contents (Elt F)),
    binary main_v7 main_v13 main_v32 (mulf : (⟨S4000000, .f32⟩ : BufTy).Contents (Elt F) → (⟨S4000000, .f32⟩ : BufTy).Contents (Elt F) → (⟨S4000000, .f32⟩ : BufTy).Contents (Elt F)),
    binary main_v31 main_v32 main_v33 (addf : (⟨S4000000, .f32⟩ : BufTy).Contents (Elt F) → (⟨S4000000, .f32⟩ : BufTy).Contents (Elt F) → (⟨S4000000, .f32⟩ : BufTy).Contents (Elt F)),
    nullary main_cst_4 (constant S_ .f32 0x40000000#32),
    unary main_cst_4 main_v34 (broadcastInDim S4000000 ![] bcast_S_S4000000 : (⟨S_, .f32⟩ : BufTy).Contents (Elt F) → (⟨S4000000, .f32⟩ : BufTy).Contents (Elt F)),
    binary main_v34 main_v33 main_v35 (mulf : (⟨S4000000, .f32⟩ : BufTy).Contents (Elt F) → (⟨S4000000, .f32⟩ : BufTy).Contents (Elt F) → (⟨S4000000, .f32⟩ : BufTy).Contents (Elt F)),
    binary main_v9 main_v9 main_v36 (mulf : (⟨S4000000, .f32⟩ : BufTy).Contents (Elt F) → (⟨S4000000, .f32⟩ : BufTy).Contents (Elt F) → (⟨S4000000, .f32⟩ : BufTy).Contents (Elt F)),
    binary main_v13 main_v13 main_v37 (mulf : (⟨S4000000, .f32⟩ : BufTy).Contents (Elt F) → (⟨S4000000, .f32⟩ : BufTy).Contents (Elt F) → (⟨S4000000, .f32⟩ : BufTy).Contents (Elt F)),
    binary main_v36 main_v37 main_v38 (addf : (⟨S4000000, .f32⟩ : BufTy).Contents (Elt F) → (⟨S4000000, .f32⟩ : BufTy).Contents (Elt F) → (⟨S4000000, .f32⟩ : BufTy).Contents (Elt F)),
    nullary main_cst_5 (constant S_ .f32 0x40000000#32),
    unary main_cst_5 main_v39 (broadcastInDim S4000000 ![] bcast_S_S4000000 : (⟨S_, .f32⟩ : BufTy).Contents (Elt F) → (⟨S4000000, .f32⟩ : BufTy).Contents (Elt F)),
    binary main_v39 main_v38 main_v40 (mulf : (⟨S4000000, .f32⟩ : BufTy).Contents (Elt F) → (⟨S4000000, .f32⟩ : BufTy).Contents (Elt F) → (⟨S4000000, .f32⟩ : BufTy).Contents (Elt F)),
    nullary main_cst_6 (constant S_ .f32 0x3F800000#32),
    unary main_cst_6 main_v41 (broadcastInDim S4000000 ![] bcast_S_S4000000 : (⟨S_, .f32⟩ : BufTy).Contents (Elt F) → (⟨S4000000, .f32⟩ : BufTy).Contents (Elt F)),
    binary main_v41 main_v40 main_v42 (subf : (⟨S4000000, .f32⟩ : BufTy).Contents (Elt F) → (⟨S4000000, .f32⟩ : BufTy).Contents (Elt F) → (⟨S4000000, .f32⟩ : BufTy).Contents (Elt F)),
    binary main_v11 main_v13 main_v43 (mulf : (⟨S4000000, .f32⟩ : BufTy).Contents (Elt F) → (⟨S4000000, .f32⟩ : BufTy).Contents (Elt F) → (⟨S4000000, .f32⟩ : BufTy).Contents (Elt F)),
    binary main_v7 main_v9 main_v44 (mulf : (⟨S4000000, .f32⟩ : BufTy).Contents (Elt F) → (⟨S4000000, .f32⟩ : BufTy).Contents (Elt F) → (⟨S4000000, .f32⟩ : BufTy).Contents (Elt F)),
    binary main_v43 main_v44 main_v45 (subf : (⟨S4000000, .f32⟩ : BufTy).Contents (Elt F) → (⟨S4000000, .f32⟩ : BufTy).Contents (Elt F) → (⟨S4000000, .f32⟩ : BufTy).Contents (Elt F)),
    nullary main_cst_7 (constant S_ .f32 0x40000000#32),
    unary main_cst_7 main_v46 (broadcastInDim S4000000 ![] bcast_S_S4000000 : (⟨S_, .f32⟩ : BufTy).Contents (Elt F) → (⟨S4000000, .f32⟩ : BufTy).Contents (Elt F)),
    binary main_v46 main_v45 main_v47 (mulf : (⟨S4000000, .f32⟩ : BufTy).Contents (Elt F) → (⟨S4000000, .f32⟩ : BufTy).Contents (Elt F) → (⟨S4000000, .f32⟩ : BufTy).Contents (Elt F)),
    binary main_v9 main_v13 main_v48 (mulf : (⟨S4000000, .f32⟩ : BufTy).Contents (Elt F) → (⟨S4000000, .f32⟩ : BufTy).Contents (Elt F) → (⟨S4000000, .f32⟩ : BufTy).Contents (Elt F)),
    binary main_v7 main_v11 main_v49 (mulf : (⟨S4000000, .f32⟩ : BufTy).Contents (Elt F) → (⟨S4000000, .f32⟩ : BufTy).Contents (Elt F) → (⟨S4000000, .f32⟩ : BufTy).Contents (Elt F)),
    binary main_v48 main_v49 main_v50 (subf : (⟨S4000000, .f32⟩ : BufTy).Contents (Elt F) → (⟨S4000000, .f32⟩ : BufTy).Contents (Elt F) → (⟨S4000000, .f32⟩ : BufTy).Contents (Elt F)),
    nullary main_cst_8 (constant S_ .f32 0x40000000#32),
    unary main_cst_8 main_v51 (broadcastInDim S4000000 ![] bcast_S_S4000000 : (⟨S_, .f32⟩ : BufTy).Contents (Elt F) → (⟨S4000000, .f32⟩ : BufTy).Contents (Elt F)),
    binary main_v51 main_v50 main_v52 (mulf : (⟨S4000000, .f32⟩ : BufTy).Contents (Elt F) → (⟨S4000000, .f32⟩ : BufTy).Contents (Elt F) → (⟨S4000000, .f32⟩ : BufTy).Contents (Elt F)),
    binary main_v11 main_v13 main_v53 (mulf : (⟨S4000000, .f32⟩ : BufTy).Contents (Elt F) → (⟨S4000000, .f32⟩ : BufTy).Contents (Elt F) → (⟨S4000000, .f32⟩ : BufTy).Contents (Elt F)),
    binary main_v7 main_v9 main_v54 (mulf : (⟨S4000000, .f32⟩ : BufTy).Contents (Elt F) → (⟨S4000000, .f32⟩ : BufTy).Contents (Elt F) → (⟨S4000000, .f32⟩ : BufTy).Contents (Elt F)),
    binary main_v53 main_v54 main_v55 (addf : (⟨S4000000, .f32⟩ : BufTy).Contents (Elt F) → (⟨S4000000, .f32⟩ : BufTy).Contents (Elt F) → (⟨S4000000, .f32⟩ : BufTy).Contents (Elt F)),
    nullary main_cst_9 (constant S_ .f32 0x40000000#32),
    unary main_cst_9 main_v56 (broadcastInDim S4000000 ![] bcast_S_S4000000 : (⟨S_, .f32⟩ : BufTy).Contents (Elt F) → (⟨S4000000, .f32⟩ : BufTy).Contents (Elt F)),
    binary main_v56 main_v55 main_v57 (mulf : (⟨S4000000, .f32⟩ : BufTy).Contents (Elt F) → (⟨S4000000, .f32⟩ : BufTy).Contents (Elt F) → (⟨S4000000, .f32⟩ : BufTy).Contents (Elt F)),
    binary main_v9 main_v9 main_v58 (mulf : (⟨S4000000, .f32⟩ : BufTy).Contents (Elt F) → (⟨S4000000, .f32⟩ : BufTy).Contents (Elt F) → (⟨S4000000, .f32⟩ : BufTy).Contents (Elt F)),
    binary main_v11 main_v11 main_v59 (mulf : (⟨S4000000, .f32⟩ : BufTy).Contents (Elt F) → (⟨S4000000, .f32⟩ : BufTy).Contents (Elt F) → (⟨S4000000, .f32⟩ : BufTy).Contents (Elt F)),
    binary main_v58 main_v59 main_v60 (addf : (⟨S4000000, .f32⟩ : BufTy).Contents (Elt F) → (⟨S4000000, .f32⟩ : BufTy).Contents (Elt F) → (⟨S4000000, .f32⟩ : BufTy).Contents (Elt F)),
    nullary main_cst_10 (constant S_ .f32 0x40000000#32),
    unary main_cst_10 main_v61 (broadcastInDim S4000000 ![] bcast_S_S4000000 : (⟨S_, .f32⟩ : BufTy).Contents (Elt F) → (⟨S4000000, .f32⟩ : BufTy).Contents (Elt F)),
    binary main_v61 main_v60 main_v62 (mulf : (⟨S4000000, .f32⟩ : BufTy).Contents (Elt F) → (⟨S4000000, .f32⟩ : BufTy).Contents (Elt F) → (⟨S4000000, .f32⟩ : BufTy).Contents (Elt F)),
    nullary main_cst_11 (constant S_ .f32 0x3F800000#32),
    unary main_cst_11 main_v63 (broadcastInDim S4000000 ![] bcast_S_S4000000 : (⟨S_, .f32⟩ : BufTy).Contents (Elt F) → (⟨S4000000, .f32⟩ : BufTy).Contents (Elt F)),
    binary main_v63 main_v62 main_v64 (subf : (⟨S4000000, .f32⟩ : BufTy).Contents (Elt F) → (⟨S4000000, .f32⟩ : BufTy).Contents (Elt F) → (⟨S4000000, .f32⟩ : BufTy).Contents (Elt F)),
    unary main_v20 main_v65 (broadcastInDim S4000000x1 ![0] bcast_S4000000_S4000000x1_0 : (⟨S4000000, .f32⟩ : BufTy).Contents (Elt F) → (⟨S4000000x1, .f32⟩ : BufTy).Contents (Elt F)),
    unary main_v25 main_v66 (broadcastInDim S4000000x1 ![0] bcast_S4000000_S4000000x1_0 : (⟨S4000000, .f32⟩ : BufTy).Contents (Elt F) → (⟨S4000000x1, .f32⟩ : BufTy).Contents (Elt F)),
    unary main_v30 main_v67 (broadcastInDim S4000000x1 ![0] bcast_S4000000_S4000000x1_0 : (⟨S4000000, .f32⟩ : BufTy).Contents (Elt F) → (⟨S4000000x1, .f32⟩ : BufTy).Contents (Elt F)),
    unary main_v35 main_v68 (broadcastInDim S4000000x1 ![0] bcast_S4000000_S4000000x1_0 : (⟨S4000000, .f32⟩ : BufTy).Contents (Elt F) → (⟨S4000000x1, .f32⟩ : BufTy).Contents (Elt F)),
    unary main_v42 main_v69 (broadcastInDim S4000000x1 ![0] bcast_S4000000_S4000000x1_0 : (⟨S4000000, .f32⟩ : BufTy).Contents (Elt F) → (⟨S4000000x1, .f32⟩ : BufTy).Contents (Elt F)),
    unary main_v47 main_v70 (broadcastInDim S4000000x1 ![0] bcast_S4000000_S4000000x1_0 : (⟨S4000000, .f32⟩ : BufTy).Contents (Elt F) → (⟨S4000000x1, .f32⟩ : BufTy).Contents (Elt F)),
    unary main_v52 main_v71 (broadcastInDim S4000000x1 ![0] bcast_S4000000_S4000000x1_0 : (⟨S4000000, .f32⟩ : BufTy).Contents (Elt F) → (⟨S4000000x1, .f32⟩ : BufTy).Contents (Elt F)),
    unary main_v57 main_v72 (broadcastInDim S4000000x1 ![0] bcast_S4000000_S4000000x1_0 : (⟨S4000000, .f32⟩ : BufTy).Contents (Elt F) → (⟨S4000000x1, .f32⟩ : BufTy).Contents (Elt F)),
    unary main_v64 main_v73 (broadcastInDim S4000000x1 ![0] bcast_S4000000_S4000000x1_0 : (⟨S4000000, .f32⟩ : BufTy).Contents (Elt F) → (⟨S4000000x1, .f32⟩ : BufTy).Contents (Elt F)) ]

/-- The nine columns joined into [n, 9]. -/
abbrev cat74 : HloOp τ sig (Elt F) :=
  nary ![main_v65, main_v66, main_v67, main_v68, main_v69, main_v70, main_v71, main_v72, main_v73] main_v74 (fun u => concatenate S4000000x9 1 [⟨S4000000x1, u 0⟩, ⟨S4000000x1, u 1⟩, ⟨S4000000x1, u 2⟩, ⟨S4000000x1, u 3⟩, ⟨S4000000x1, u 4⟩, ⟨S4000000x1, u 5⟩, ⟨S4000000x1, u 6⟩, ⟨S4000000x1, u 7⟩, ⟨S4000000x1, u 8⟩] concatenates_S4000000x1_S4000000x1_S4000000x1_S4000000x1_S4000000x1_S4000000x1_S4000000x1_S4000000x1_S4000000x1_S4000000x9_d1)

/-- The next 23 operations: the scaled rotation, its product with its transpose, the six columns of the upper triangle. -/
abbrev opsB : List (HloOp τ sig (Elt F)) :=
  [ reshape main_v74 main_v75 rfl shapeCasts_S4000000x9_S4000000x3x3,
    unary main_v2 main_v76 (broadcastInDim S4000000x1x3 ![0, 2] bcast_S4000000x3_S4000000x1x3_0_2 : (⟨S4000000x3, .f32⟩ : BufTy).Contents (Elt F) → (⟨S4000000x1x3, .f32⟩ : BufTy).Contents (Elt F)),
    unary main_v76 main_v77 (broadcastInDim S4000000x3x3 ![0, 1, 2] bcast_S4000000x1x3_S4000000x3x3_0_1_2 : (⟨S4000000x1x3, .f32⟩ : BufTy).Contents (Elt F) → (⟨S4000000x3x3, .f32⟩ : BufTy).Contents (Elt F)),
    binary main_v75 main_v77 main_v78 (mulf : (⟨S4000000x3x3, .f32⟩ : BufTy).Contents (Elt F) → (⟨S4000000x3x3, .f32⟩ : BufTy).Contents (Elt F) → (⟨S4000000x3x3, .f32⟩ : BufTy).Contents (Elt F)),
    binary main_v78 main_v78 main_v79 ((fun l r => Host.dotGeneral dot_S4000000x3x3_S4000000x3x3_S4000000x3x3_2_2_1_1_0_0 none l r) : (⟨S4000000x3x3, .f32⟩ : BufTy).Contents (Elt F) → (⟨S4000000x3x3, .f32⟩ : BufTy).Contents (Elt F) → (⟨S4000000x3x3, .f32⟩ : BufTy).Contents (Elt F)),
    unary main_v79 main_v80 ((extractStridedSlice S4000000x1x1 ![0, 0, 0] · slices_S4000000x3x3_S4000000x1x1_0_0_0) : (⟨S4000000x3x3, .f32⟩ : BufTy).Contents (Elt F) → (⟨S4000000x1x1, .f32⟩ : BufTy).Contents (Elt F)),
    reshape main_v80 main_v81 rfl shapeCasts_S4000000x1x1_S4000000,
    unary main_v79 main_v82 ((extractStridedSlice S4000000x1x1 ![0, 0, 1] · slices_S4000000x3x3_S4000000x1x1_0_0_1) : (⟨S4000000x3x3, .f32⟩ : BufTy).Contents (Elt F) → (⟨S4000000x1x1, .f32⟩ : BufTy).Contents (Elt F)),
    reshape main_v82 main_v83 rfl shapeCasts_S4000000x1x1_S4000000,
    unary main_v79 main_v84 ((extractStridedSlice S4000000x1x1 ![0, 0, 2] · slices_S4000000x3x3_S4000000x1x1_0_0_2) : (⟨S4000000x3x3, .f32⟩ : BufTy).Contents (Elt F) → (⟨S4000000x1x1, .f32⟩ : BufTy).Contents (Elt F)),
    reshape main_v84 main_v85 rfl shapeCasts_S4000000x1x1_S4000000,
    unary main_v79 main_v86 ((extractStridedSlice S4000000x1x1 ![0, 1, 1] · slices_S4000000x3x3_S4000000x1x1_0_1_1) : (⟨S4000000x3x3, .f32⟩ : BufTy).Contents (Elt F) → (⟨S4000000x1x1, .f32⟩ : BufTy).Contents (Elt F)),
    reshape main_v86 main_v87 rfl shapeCasts_S4000000x1x1_S4000000,
    unary main_v79 main_v88 ((extractStridedSlice S4000000x1x1 ![0, 1, 2] · slices_S4000000x3x3_S4000000x1x1_0_1_2) : (⟨S4000000x3x3, .f32⟩ : BufTy).Contents (Elt F) → (⟨S4000000x1x1, .f32⟩ : BufTy).Contents (Elt F)),
    reshape main_v88 main_v89 rfl shapeCasts_S4000000x1x1_S4000000,
    unary main_v79 main_v90 ((extractStridedSlice S4000000x1x1 ![0, 2, 2] · slices_S4000000x3x3_S4000000x1x1_0_2_2) : (⟨S4000000x3x3, .f32⟩ : BufTy).Contents (Elt F) → (⟨S4000000x1x1, .f32⟩ : BufTy).Contents (Elt F)),
    reshape main_v90 main_v91 rfl shapeCasts_S4000000x1x1_S4000000,
    unary main_v81 main_v92 (broadcastInDim S4000000x1 ![0] bcast_S4000000_S4000000x1_0 : (⟨S4000000, .f32⟩ : BufTy).Contents (Elt F) → (⟨S4000000x1, .f32⟩ : BufTy).Contents (Elt F)),
    unary main_v83 main_v93 (broadcastInDim S4000000x1 ![0] bcast_S4000000_S4000000x1_0 : (⟨S4000000, .f32⟩ : BufTy).Contents (Elt F) → (⟨S4000000x1, .f32⟩ : BufTy).Contents (Elt F)),
    unary main_v85 main_v94 (broadcastInDim S4000000x1 ![0] bcast_S4000000_S4000000x1_0 : (⟨S4000000, .f32⟩ : BufTy).Contents (Elt F) → (⟨S4000000x1, .f32⟩ : BufTy).Contents (Elt F)),
    unary main_v87 main_v95 (broadcastInDim S4000000x1 ![0] bcast_S4000000_S4000000x1_0 : (⟨S4000000, .f32⟩ : BufTy).Contents (Elt F) → (⟨S4000000x1, .f32⟩ : BufTy).Contents (Elt F)),
    unary main_v89 main_v96 (broadcastInDim S4000000x1 ![0] bcast_S4000000_S4000000x1_0 : (⟨S4000000, .f32⟩ : BufTy).Contents (Elt F) → (⟨S4000000x1, .f32⟩ : BufTy).Contents (Elt F)),
    unary main_v91 main_v97 (broadcastInDim S4000000x1 ![0] bcast_S4000000_S4000000x1_0 : (⟨S4000000, .f32⟩ : BufTy).Contents (Elt F) → (⟨S4000000x1, .f32⟩ : BufTy).Contents (Elt F)) ]

/-- The six columns joined into [n, 6]. -/
abbrev cat98 : HloOp τ sig (Elt F) :=
  nary ![main_v92, main_v93, main_v94, main_v95, main_v96, main_v97] main_v98 (fun u => concatenate S4000000x6 1 [⟨S4000000x1, u 0⟩, ⟨S4000000x1, u 1⟩, ⟨S4000000x1, u 2⟩, ⟨S4000000x1, u 3⟩, ⟨S4000000x1, u 4⟩, ⟨S4000000x1, u 5⟩] concatenates_S4000000x1_S4000000x1_S4000000x1_S4000000x1_S4000000x1_S4000000x1_S4000000x6_d1)

set_option maxRecDepth 8192 in
/-- The line is those four pieces in order. -/
theorem ops_split : (ops : List (HloOp τ sig (Elt F))) = opsA ++ cat74 :: (opsB ++ [cat98]) := rfl

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## The first segment, from the launch contents -/

section SegA
variable (m : (ℓ : Loc nD τ sig) → Buf (Elt F) ℓ) (c : Dev nD)

set_option maxRecDepth 8192 in
set_option maxHeartbeats 4000000 in
theorem segA_v65 : after opsA (launchContents m c) (Proc.devRef .tc main_v65) = val_main_v65 (F := F) (m ((c.tc : Thread nD τ).loc main_arg1)) := by
  after_results_simp <;> rfl
set_option maxRecDepth 8192 in
set_option maxHeartbeats 4000000 in
theorem segA_v66 : after opsA (launchContents m c) (Proc.devRef .tc main_v66) = val_main_v66 (F := F) (m ((c.tc : Thread nD τ).loc main_arg1)) := by
  after_results_simp <;> rfl
set_option maxRecDepth 8192 in
set_option maxHeartbeats 4000000 in
theorem segA_v67 : after opsA (launchContents m c) (Proc.devRef .tc main_v67) = val_main_v67 (F := F) (m ((c.tc : Thread nD τ).loc main_arg1)) := by
  after_results_simp <;> rfl
set_option maxRecDepth 8192 in
set_option maxHeartbeats 4000000 in
theorem segA_v68 : after opsA (launchContents m c) (Proc.devRef .tc main_v68) = val_main_v68 (F := F) (m ((c.tc : Thread nD τ).loc main_arg1)) := by
  after_results_simp <;> rfl
set_option maxRecDepth 8192 in
set_option maxHeartbeats 4000000 in
theorem segA_v69 : after opsA (launchContents m c) (Proc.devRef .tc main_v69) = val_main_v69 (F := F) (m ((c.tc : Thread nD τ).loc main_arg1)) := by
  after_results_simp <;> rfl
set_option maxRecDepth 8192 in
set_option maxHeartbeats 4000000 in
theorem segA_v70 : after opsA (launchContents m c) (Proc.devRef .tc main_v70) = val_main_v70 (F := F) (m ((c.tc : Thread nD τ).loc main_arg1)) := by
  after_results_simp <;> rfl
set_option maxRecDepth 8192 in
set_option maxHeartbeats 4000000 in
theorem segA_v71 : after opsA (launchContents m c) (Proc.devRef .tc main_v71) = val_main_v71 (F := F) (m ((c.tc : Thread nD τ).loc main_arg1)) := by
  after_results_simp <;> rfl
set_option maxRecDepth 8192 in
set_option maxHeartbeats 4000000 in
theorem segA_v72 : after opsA (launchContents m c) (Proc.devRef .tc main_v72) = val_main_v72 (F := F) (m ((c.tc : Thread nD τ).loc main_arg1)) := by
  after_results_simp <;> rfl
set_option maxRecDepth 8192 in
set_option maxHeartbeats 4000000 in
theorem segA_v73 : after opsA (launchContents m c) (Proc.devRef .tc main_v73) = val_main_v73 (F := F) (m ((c.tc : Thread nD τ).loc main_arg1)) := by
  after_results_simp <;> rfl
set_option maxRecDepth 8192 in
set_option maxHeartbeats 4000000 in
theorem segA_v2 : after opsA (launchContents m c) (Proc.devRef .tc main_v2) = val_main_v2 (F := F) (m ((c.tc : Thread nD τ).loc main_arg0)) := by
  after_results_simp <;> rfl
end SegA

/-! ## The nine-way concatenation, from its operands -/

/-- Whatever the nine columns hold, the concatenation's buffer holds them joined; the other buffers are kept. -/
theorem cat74_step (W : Valuation τ sig (Elt F)) (b0 b1 b2 b3 b4 b5 b6 b7 b8 : (⟨S4000000x1, .f32⟩ : BufTy).Contents (Elt F))
    (h0 : W (Proc.devRef .tc main_v65) = b0)
    (h1 : W (Proc.devRef .tc main_v66) = b1)
    (h2 : W (Proc.devRef .tc main_v67) = b2)
    (h3 : W (Proc.devRef .tc main_v68) = b3)
    (h4 : W (Proc.devRef .tc main_v69) = b4)
    (h5 : W (Proc.devRef .tc main_v70) = b5)
    (h6 : W (Proc.devRef .tc main_v71) = b6)
    (h7 : W (Proc.devRef .tc main_v72) = b7)
    (h8 : W (Proc.devRef .tc main_v73) = b8) :
    (cat74 (F := F)).result W (Proc.devRef .tc main_v74)
      = concatenate S4000000x9 1 [⟨S4000000x1, b0⟩, ⟨S4000000x1, b1⟩, ⟨S4000000x1, b2⟩, ⟨S4000000x1, b3⟩, ⟨S4000000x1, b4⟩, ⟨S4000000x1, b5⟩, ⟨S4000000x1, b6⟩, ⟨S4000000x1, b7⟩, ⟨S4000000x1, b8⟩] concatenates_S4000000x1_S4000000x1_S4000000x1_S4000000x1_S4000000x1_S4000000x1_S4000000x1_S4000000x1_S4000000x1_S4000000x9_d1 := by
  subst h0 h1 h2 h3 h4 h5 h6 h7 h8
  exact (nary9_result _ _ _ W).trans rfl

/-! ## The third segment, from the joined columns and the scales -/

set_option maxRecDepth 8192 in
set_option maxHeartbeats 4000000 in
theorem segB_v92 (W : Valuation τ sig (Elt F)) (x0 : (⟨S4000000x3, .f32⟩ : BufTy).Contents (Elt F)) (x1 : (⟨S4000000x4, .f32⟩ : BufTy).Contents (Elt F))
    (h74 : W (Proc.devRef .tc main_v74) = val_main_v74 (F := F) x1) (h2 : W (Proc.devRef .tc main_v2) = val_main_v2 (F := F) x0) :
    after opsB W (Proc.devRef .tc main_v92) = val_main_v92 (F := F) x0 x1 := by
  simp (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne', h74, h2] <;> rfl
set_option maxRecDepth 8192 in
set_option maxHeartbeats 4000000 in
theorem segB_v93 (W : Valuation τ sig (Elt F)) (x0 : (⟨S4000000x3, .f32⟩ : BufTy).Contents (Elt F)) (x1 : (⟨S4000000x4, .f32⟩ : BufTy).Contents (Elt F))
    (h74 : W (Proc.devRef .tc main_v74) = val_main_v74 (F := F) x1) (h2 : W (Proc.devRef .tc main_v2) = val_main_v2 (F := F) x0) :
    after opsB W (Proc.devRef .tc main_v93) = val_main_v93 (F := F) x0 x1 := by
  simp (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne', h74, h2] <;> rfl
set_option maxRecDepth 8192 in
set_option maxHeartbeats 4000000 in
theorem segB_v94 (W : Valuation τ sig (Elt F)) (x0 : (⟨S4000000x3, .f32⟩ : BufTy).Contents (Elt F)) (x1 : (⟨S4000000x4, .f32⟩ : BufTy).Contents (Elt F))
    (h74 : W (Proc.devRef .tc main_v74) = val_main_v74 (F := F) x1) (h2 : W (Proc.devRef .tc main_v2) = val_main_v2 (F := F) x0) :
    after opsB W (Proc.devRef .tc main_v94) = val_main_v94 (F := F) x0 x1 := by
  simp (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne', h74, h2] <;> rfl
set_option maxRecDepth 8192 in
set_option maxHeartbeats 4000000 in
theorem segB_v95 (W : Valuation τ sig (Elt F)) (x0 : (⟨S4000000x3, .f32⟩ : BufTy).Contents (Elt F)) (x1 : (⟨S4000000x4, .f32⟩ : BufTy).Contents (Elt F))
    (h74 : W (Proc.devRef .tc main_v74) = val_main_v74 (F := F) x1) (h2 : W (Proc.devRef .tc main_v2) = val_main_v2 (F := F) x0) :
    after opsB W (Proc.devRef .tc main_v95) = val_main_v95 (F := F) x0 x1 := by
  simp (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne', h74, h2] <;> rfl
set_option maxRecDepth 8192 in
set_option maxHeartbeats 4000000 in
theorem segB_v96 (W : Valuation τ sig (Elt F)) (x0 : (⟨S4000000x3, .f32⟩ : BufTy).Contents (Elt F)) (x1 : (⟨S4000000x4, .f32⟩ : BufTy).Contents (Elt F))
    (h74 : W (Proc.devRef .tc main_v74) = val_main_v74 (F := F) x1) (h2 : W (Proc.devRef .tc main_v2) = val_main_v2 (F := F) x0) :
    after opsB W (Proc.devRef .tc main_v96) = val_main_v96 (F := F) x0 x1 := by
  simp (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne', h74, h2] <;> rfl
set_option maxRecDepth 8192 in
set_option maxHeartbeats 4000000 in
theorem segB_v97 (W : Valuation τ sig (Elt F)) (x0 : (⟨S4000000x3, .f32⟩ : BufTy).Contents (Elt F)) (x1 : (⟨S4000000x4, .f32⟩ : BufTy).Contents (Elt F))
    (h74 : W (Proc.devRef .tc main_v74) = val_main_v74 (F := F) x1) (h2 : W (Proc.devRef .tc main_v2) = val_main_v2 (F := F) x0) :
    after opsB W (Proc.devRef .tc main_v97) = val_main_v97 (F := F) x0 x1 := by
  simp (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne', h74, h2] <;> rfl

/-! ## The six-way concatenation, from its operands -/

theorem cat98_step (W : Valuation τ sig (Elt F)) (b0 b1 b2 b3 b4 b5 : (⟨S4000000x1, .f32⟩ : BufTy).Contents (Elt F))
    (h0 : W (Proc.devRef .tc main_v92) = b0)
    (h1 : W (Proc.devRef .tc main_v93) = b1)
    (h2 : W (Proc.devRef .tc main_v94) = b2)
    (h3 : W (Proc.devRef .tc main_v95) = b3)
    (h4 : W (Proc.devRef .tc main_v96) = b4)
    (h5 : W (Proc.devRef .tc main_v97) = b5) :
    (cat98 (F := F)).result W (Proc.devRef .tc main_v98)
      = concatenate S4000000x6 1 [⟨S4000000x1, b0⟩, ⟨S4000000x1, b1⟩, ⟨S4000000x1, b2⟩, ⟨S4000000x1, b3⟩, ⟨S4000000x1, b4⟩, ⟨S4000000x1, b5⟩] concatenates_S4000000x1_S4000000x1_S4000000x1_S4000000x1_S4000000x1_S4000000x1_S4000000x6_d1 := by
  subst h0 h1 h2 h3 h4 h5
  exact (nary6_result _ _ _ W).trans rfl

/-! ## The whole line -/

section Whole
variable (m : (ℓ : Loc nD τ sig) → Buf (Elt F) ℓ)

set_option maxRecDepth 8192 in
/-- THE FOLD, EVALUATED: the result buffer after the 116 operations is the last stage of the arguments. -/
theorem fold_eq (c : Dev nD) :
    after ops (launchContents m c) (Proc.devRef .tc main_v98) = val_main_v98 (F := F) (m ((c.tc : Thread nD τ).loc main_arg0)) (m ((c.tc : Thread nD τ).loc main_arg1)) := by
  rw [ops_split, after_append, after_cons, after_append, after_cons, after_nil]
  have h65 := segA_v65 m c
  have h66 := segA_v66 m c
  have h67 := segA_v67 m c
  have h68 := segA_v68 m c
  have h69 := segA_v69 m c
  have h70 := segA_v70 m c
  have h71 := segA_v71 m c
  have h72 := segA_v72 m c
  have h73 := segA_v73 m c
  have hs := segA_v2 m c
  generalize after opsA (launchContents m c) = W1 at *
  have h74 : (cat74 (F := F)).result W1 (Proc.devRef .tc main_v74) = val_main_v74 (F := F) (m ((c.tc : Thread nD τ).loc main_arg1)) :=
    cat74_step W1 _ _ _ _ _ _ _ _ _ h65 h66 h67 h68 h69 h70 h71 h72 h73
  have h2 : (cat74 (F := F)).result W1 (Proc.devRef .tc main_v2) = val_main_v2 (F := F) (m ((c.tc : Thread nD τ).loc main_arg0)) :=
    (nary_result_ne' _ _ _ _ W1 (by decide)).trans hs
  generalize (cat74 (F := F)).result W1 = W2 at *
  have g92 := segB_v92 W2 _ _ h74 h2
  have g93 := segB_v93 W2 _ _ h74 h2
  have g94 := segB_v94 W2 _ _ h74 h2
  have g95 := segB_v95 W2 _ _ h74 h2
  have g96 := segB_v96 W2 _ _ h74 h2
  have g97 := segB_v97 W2 _ _ h74 h2
  generalize after opsB W2 = W3 at *
  exact cat98_step W3 _ _ _ _ _ _ g92 g93 g94 g95 g96 g97

/-- On every device, from any memory with zero counters: every weakly fair execution of the reference terminates with
    the result at the last stage of the arguments and the arguments unchanged. -/
theorem run_value (ρ : Dev nD → PrngReg) :
    θ_run defs (onTc (τ := τ) (main (F := F))) ⟨m, fun _ => 0, ρ⟩ fun r => ∀ c : Dev nD,
      r.2.mem ((c.tc : Thread nD τ).loc main_v98) = val_main_v98 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (fold_eq m c), (h c).2⟩) (Cert.ReferenceIdeal.Value.run (F := F) m ρ)

end Whole

end Cert.ReferenceIdeal.Fold

end
-- ==== Proof.CovSpec.lean ====
/-
  The covariance of a Gaussian from its three log-scales and its quaternion, as six numbers per row.

  With q = (w, x, y, z) the quaternion divided by its Euclidean norm, R the rotation matrix of q, s the
  exponentials of the log-scales and L = R · diag s, the row holds the upper triangle of L · Lᵀ in the order
  (0,0), (0,1), (0,2), (1,1), (1,2), (2,2); entry (i, k) of L · Lᵀ is L i 0 * L k 0 + L i 1 * L k 1 + L i 2 * L k 2.

  Two ways of normalising the quaternion are stated: the product of each component with the reciprocal square
  root of the sum of squares, and the quotient of each component by the square root of that sum. On the
  extended reals they are one value wherever the sum of squares is positive (at a positive real a,
  rsqrt a = (√a)⁻¹ and x / √a = x · (√a)⁻¹; at +∞ both sides are x · 0), and they differ at an all-zero
  quaternion (0 · rsqrt 0 = 0 · ⊤ = 0 against 0 / 0). So the two whole-array functions below agree on every
  array of quaternions whose rows all have a positive sum of squares.
-/
import Idealize.ShloMosaic.PureOps.Ideal
import Idealize.ShloMosaic.PureOps.Ideal.Laws
import Idealize.ShloMosaic.Lib.ValueIdx
import Idealize.ShloMosaic.Lib.IdealHost

noncomputable section

namespace Cert.CovSpec

open Idealize.ShloMosaic Idealize.ShloMosaic.ValueIdx

/-- The float words of 0, 1 and 2, read as extended reals. -/
abbrev c0 : EReal := Ideal.ofBits .f32 0x00000000#32
abbrev c1 : EReal := Ideal.ofBits .f32 0x3F800000#32
abbrev c2 : EReal := Ideal.ofBits .f32 0x40000000#32

/-- Row i, column j of the rotation matrix of the quaternion (w, x, y, z). -/
def rot (w x y z : EReal) : Fin 3 → Fin 3 → EReal :=
  ![![c1 - c2 * (y * y + z * z), c2 * (x * y - w * z), c2 * (x * z + w * y)],
    ![c2 * (x * y + w * z), c1 - c2 * (x * x + z * z), c2 * (y * z - w * x)],
    ![c2 * (x * z - w * y), c2 * (y * z + w * x), c1 - c2 * (x * x + y * y)]]

/-- L = R · diag s: column j of the rotation scaled by s j. -/
def scaled (s : Fin 3 → EReal) (q : Fin 4 → EReal) (i j : Fin 3) : EReal :=
  rot (q 0) (q 1) (q 2) (q 3) i j * s j

/-- Entry (i, k) of L · Lᵀ, the three products summed left to right. -/
def gram (s : Fin 3 → EReal) (q : Fin 4 → EReal) (i k : Fin 3) : EReal :=
  scaled s q i 0 * scaled s q k 0 + scaled s q i 1 * scaled s q k 1 + scaled s q i 2 * scaled s q k 2

/-- The upper triangle in row-major order: position c is entry (triRow c, triCol c). -/
def triRow : Fin 6 → Fin 3 := ![0, 0, 0, 1, 1, 2]
def triCol : Fin 6 → Fin 3 := ![0, 1, 2, 1, 2, 2]

/-- The six covariance numbers of one Gaussian with scales s and (normalised) quaternion q. -/
def cov (s : Fin 3 → EReal) (q : Fin 4 → EReal) (c : Fin 6) : EReal := gram s q (triRow c) (triCol c)

/-- The sum of the squares of quaternion n's four components. -/
def sqNorm (r : (⟨2, ![4000000, 4]⟩ : Shape).Idx → EReal) (n : Fin 4000000) : EReal :=
  ∑ k : Fin 4, r (ix2 n k) * r (ix2 n k)

/-- A quaternion normalised by the product of each component with the reciprocal square root of the sum of squares. -/
def normMul (r : Fin 4 → EReal) : Fin 4 → EReal := fun k => r k * Ideal.rsqrt (∑ k' : Fin 4, r k' * r k')

/-- Row n, position c, normalising by the product with the reciprocal square root. -/
def covMul (a : (⟨2, ![4000000, 3]⟩ : Shape).Idx → EReal) (r : (⟨2, ![4000000, 4]⟩ : Shape).Idx → EReal)
    (n : Fin 4000000) (c : Fin 6) : EReal :=
  cov (fun j => Ideal.exp (a (ix2 n j))) (normMul fun k => r (ix2 n k)) c

/-- Row n, position c, normalising by the quotient by the square root; the scales carry the factor 1 the
    reference multiplies them by, and the sum of squares the initial value 0 the reference's sum starts from. -/
def covDiv (a : (⟨2, ![4000000, 3]⟩ : Shape).Idx → EReal) (r : (⟨2, ![4000000, 4]⟩ : Shape).Idx → EReal)
    (n : Fin 4000000) (c : Fin 6) : EReal :=
  cov (fun j => c1 * Ideal.exp (a (ix2 n j))) (fun k => Ideal.div (r (ix2 n k)) (Ideal.sqrt (c0 + sqNorm r n))) c

/-- Where a is positive, the product with the reciprocal square root of a is the quotient by its square root. -/
theorem mul_rsqrt_eq_div_sqrt (x a : EReal) (ha : 0 < a) : x * Ideal.rsqrt a = Ideal.div x (Ideal.sqrt a) := by
  induction a using EReal.rec with
  | bot => exact absurd ha (not_lt_bot)
  | top =>
    rw [Ideal.rsqrt_top, Ideal.sqrt_top, Ideal.div, if_neg EReal.top_ne_zero, EReal.inv_top]
  | coe t =>
    have ht : 0 < t := by exact_mod_cast ha
    have hs : 0 < Real.sqrt t := Real.sqrt_pos.mpr ht
    rw [Ideal.rsqrt_coe, Ideal.sqrt_coe, if_neg (not_lt.mpr ht.le), if_neg ht.ne', if_neg (not_lt.mpr ht.le),
      Ideal.div, if_neg (by exact_mod_cast hs.ne'), EReal.coe_inv]

/-- On quaternions whose rows all have a positive sum of squares the two normalisations give one array. -/
theorem covMul_eq_covDiv (a : (⟨2, ![4000000, 3]⟩ : Shape).Idx → EReal) (r : (⟨2, ![4000000, 4]⟩ : Shape).Idx → EReal)
    (hpos : ∀ n, 0 < sqNorm r n) (n : Fin 4000000) (c : Fin 6) : covMul a r n c = covDiv a r n c := by
  unfold covMul covDiv
  have hs : (fun j : Fin 3 => c1 * Ideal.exp (a (ix2 n j))) = fun j => Ideal.exp (a (ix2 n j)) := by
    funext j; rw [show c1 = 1 from Ideal.ofBits_one_f32, one_mul]
  have hq : (fun k : Fin 4 => Ideal.div (r (ix2 n k)) (Ideal.sqrt (c0 + sqNorm r n)))
      = normMul fun k => r (ix2 n k) := by
    funext k
    rw [show c0 = 0 from Ideal.ofBits_zero_f32, zero_add]
    exact (mul_rsqrt_eq_div_sqrt _ _ (hpos n)).symm
  rw [hs, hq]

end Cert.CovSpec

end
-- ==== Proof.LibConcatRows.lean ====
/-
  A concatenation along axis 0 of N rows of shape [1, C] into [N, C], read at an index given by coordinates:
  entry (n, p) of the result is entry (0, p) of row n.
-/
import Idealize.ShloMosaic.Lib.Pipeline.Value
import Idealize.ShloMosaic.Lib.ValueIdx

noncomputable section

namespace Idealize.ShloMosaic.ConcatRows

open Idealize.ShloMosaic Idealize.ShloMosaic.ValueIdx

variable {α : Type}

/-- N rows of shape [1, C] joined along axis 0: entry (n, p) of the result is entry (0, p) of row n. -/
theorem concatenate_rows_apply {N C : Nat} (f : Fin N → ((⟨2, ![1, C]⟩ : Shape).Idx → α))
    (xs : List ((s : Shape) × (s.Idx → α)))
    (hxs : xs = List.ofFn fun n : Fin N => (⟨⟨2, ![1, C]⟩, f n⟩ : (s : Shape) × (s.Idx → α)))
    (h : Shape.Concatenates (xs.map (·.1)) ⟨2, ![N, C]⟩ 0) (n : Fin N) (p : Fin C) :
    concatenate ⟨2, ![N, C]⟩ 0 xs h (ix2 n p) = f n (ix2 0 p) := by
  subst hxs
  exact concatenate_ofFn_unit_apply (t := ⟨2, ![N, C]⟩) (s₁ := ⟨2, ![1, C]⟩) 0 f h rfl rfl (ix2 n p) n rfl (ix2 0 p)
    (fun b hb => by match b with | ⟨0, _⟩ => exact absurd rfl hb | ⟨1, _⟩ => rfl)

/-- Six rows joined: entry (n, p) is entry (0, p) of row n, the row chosen by the coordinate n. -/
theorem rows6_apply {C : Nat} (a0 a1 a2 a3 a4 a5 : (⟨2, ![1, C]⟩ : Shape).Idx → α)
    (h : Shape.Concatenates [(⟨2, ![1, C]⟩ : Shape), ⟨2, ![1, C]⟩, ⟨2, ![1, C]⟩, ⟨2, ![1, C]⟩, ⟨2, ![1, C]⟩, ⟨2, ![1, C]⟩]
      ⟨2, ![6, C]⟩ 0) (n : Fin 6) (p : Fin C) :
    concatenate ⟨2, ![6, C]⟩ 0 [⟨⟨2, ![1, C]⟩, a0⟩, ⟨⟨2, ![1, C]⟩, a1⟩, ⟨⟨2, ![1, C]⟩, a2⟩, ⟨⟨2, ![1, C]⟩, a3⟩,
        ⟨⟨2, ![1, C]⟩, a4⟩, ⟨⟨2, ![1, C]⟩, a5⟩] h (ix2 n p)
      = (![a0, a1, a2, a3, a4, a5] : Fin 6 → _) n (ix2 0 p) :=
  concatenate_rows_apply ![a0, a1, a2, a3, a4, a5] _ rfl h n p

/-- Row 0 of six rows joined along axis 0. -/
theorem rows6_at0 {C : Nat} (a0 a1 a2 a3 a4 a5 : (⟨2, ![1, C]⟩ : Shape).Idx → α)
    (h : Shape.Concatenates [(⟨2, ![1, C]⟩ : Shape), ⟨2, ![1, C]⟩, ⟨2, ![1, C]⟩, ⟨2, ![1, C]⟩, ⟨2, ![1, C]⟩, ⟨2, ![1, C]⟩]
      ⟨2, ![6, C]⟩ 0) (p : Fin C) :
    concatenate ⟨2, ![6, C]⟩ 0 [⟨⟨2, ![1, C]⟩, a0⟩, ⟨⟨2, ![1, C]⟩, a1⟩, ⟨⟨2, ![1, C]⟩, a2⟩, ⟨⟨2, ![1, C]⟩, a3⟩,
        ⟨⟨2, ![1, C]⟩, a4⟩, ⟨⟨2, ![1, C]⟩, a5⟩] h (ix2 (0 : Fin 6) p) = a0 (ix2 0 p) :=
  (rows6_apply a0 a1 a2 a3 a4 a5 h 0 p).trans rfl

/-- Row 1 of six rows joined along axis 0. -/
theorem rows6_at1 {C : Nat} (a0 a1 a2 a3 a4 a5 : (⟨2, ![1, C]⟩ : Shape).Idx → α)
    (h : Shape.Concatenates [(⟨2, ![1, C]⟩ : Shape), ⟨2, ![1, C]⟩, ⟨2, ![1, C]⟩, ⟨2, ![1, C]⟩, ⟨2, ![1, C]⟩, ⟨2, ![1, C]⟩]
      ⟨2, ![6, C]⟩ 0) (p : Fin C) :
    concatenate ⟨2, ![6, C]⟩ 0 [⟨⟨2, ![1, C]⟩, a0⟩, ⟨⟨2, ![1, C]⟩, a1⟩, ⟨⟨2, ![1, C]⟩, a2⟩, ⟨⟨2, ![1, C]⟩, a3⟩,
        ⟨⟨2, ![1, C]⟩, a4⟩, ⟨⟨2, ![1, C]⟩, a5⟩] h (ix2 (1 : Fin 6) p) = a1 (ix2 0 p) :=
  (rows6_apply a0 a1 a2 a3 a4 a5 h 1 p).trans rfl

/-- Row 2 of six rows joined along axis 0. -/
theorem rows6_at2 {C : Nat} (a0 a1 a2 a3 a4 a5 : (⟨2, ![1, C]⟩ : Shape).Idx → α)
    (h : Shape.Concatenates [(⟨2, ![1, C]⟩ : Shape), ⟨2, ![1, C]⟩, ⟨2, ![1, C]⟩, ⟨2, ![1, C]⟩, ⟨2, ![1, C]⟩, ⟨2, ![1, C]⟩]
      ⟨2, ![6, C]⟩ 0) (p : Fin C) :
    concatenate ⟨2, ![6, C]⟩ 0 [⟨⟨2, ![1, C]⟩, a0⟩, ⟨⟨2, ![1, C]⟩, a1⟩, ⟨⟨2, ![1, C]⟩, a2⟩, ⟨⟨2, ![1, C]⟩, a3⟩,
        ⟨⟨2, ![1, C]⟩, a4⟩, ⟨⟨2, ![1, C]⟩, a5⟩] h (ix2 (2 : Fin 6) p) = a2 (ix2 0 p) :=
  (rows6_apply a0 a1 a2 a3 a4 a5 h 2 p).trans rfl

/-- Row 3 of six rows joined along axis 0. -/
theorem rows6_at3 {C : Nat} (a0 a1 a2 a3 a4 a5 : (⟨2, ![1, C]⟩ : Shape).Idx → α)
    (h : Shape.Concatenates [(⟨2, ![1, C]⟩ : Shape), ⟨2, ![1, C]⟩, ⟨2, ![1, C]⟩, ⟨2, ![1, C]⟩, ⟨2, ![1, C]⟩, ⟨2, ![1, C]⟩]
      ⟨2, ![6, C]⟩ 0) (p : Fin C) :
    concatenate ⟨2, ![6, C]⟩ 0 [⟨⟨2, ![1, C]⟩, a0⟩, ⟨⟨2, ![1, C]⟩, a1⟩, ⟨⟨2, ![1, C]⟩, a2⟩, ⟨⟨2, ![1, C]⟩, a3⟩,
        ⟨⟨2, ![1, C]⟩, a4⟩, ⟨⟨2, ![1, C]⟩, a5⟩] h (ix2 (3 : Fin 6) p) = a3 (ix2 0 p) :=
  (rows6_apply a0 a1 a2 a3 a4 a5 h 3 p).trans rfl

/-- Row 4 of six rows joined along axis 0. -/
theorem rows6_at4 {C : Nat} (a0 a1 a2 a3 a4 a5 : (⟨2, ![1, C]⟩ : Shape).Idx → α)
    (h : Shape.Concatenates [(⟨2, ![1, C]⟩ : Shape), ⟨2, ![1, C]⟩, ⟨2, ![1, C]⟩, ⟨2, ![1, C]⟩, ⟨2, ![1, C]⟩, ⟨2, ![1, C]⟩]
      ⟨2, ![6, C]⟩ 0) (p : Fin C) :
    concatenate ⟨2, ![6, C]⟩ 0 [⟨⟨2, ![1, C]⟩, a0⟩, ⟨⟨2, ![1, C]⟩, a1⟩, ⟨⟨2, ![1, C]⟩, a2⟩, ⟨⟨2, ![1, C]⟩, a3⟩,
        ⟨⟨2, ![1, C]⟩, a4⟩, ⟨⟨2, ![1, C]⟩, a5⟩] h (ix2 (4 : Fin 6) p) = a4 (ix2 0 p) :=
  (rows6_apply a0 a1 a2 a3 a4 a5 h 4 p).trans rfl

/-- Row 5 of six rows joined along axis 0. -/
theorem rows6_at5 {C : Nat} (a0 a1 a2 a3 a4 a5 : (⟨2, ![1, C]⟩ : Shape).Idx → α)
    (h : Shape.Concatenates [(⟨2, ![1, C]⟩ : Shape), ⟨2, ![1, C]⟩, ⟨2, ![1, C]⟩, ⟨2, ![1, C]⟩, ⟨2, ![1, C]⟩, ⟨2, ![1, C]⟩]
      ⟨2, ![6, C]⟩ 0) (p : Fin C) :
    concatenate ⟨2, ![6, C]⟩ 0 [⟨⟨2, ![1, C]⟩, a0⟩, ⟨⟨2, ![1, C]⟩, a1⟩, ⟨⟨2, ![1, C]⟩, a2⟩, ⟨⟨2, ![1, C]⟩, a3⟩,
        ⟨⟨2, ![1, C]⟩, a4⟩, ⟨⟨2, ![1, C]⟩, a5⟩] h (ix2 (5 : Fin 6) p) = a5 (ix2 0 p) :=
  (rows6_apply a0 a1 a2 a3 a4 a5 h 5 p).trans rfl

end Idealize.ShloMosaic.ConcatRows

end
-- ==== Proof.KerBody.lean ====
/-
  What the kernel's body stores, read at one index of its [6, 160000] block.

  The body works on blocks laid out component-major: x0 is a [3, 160000] block of log-scales (row j, lane p), x1 a
  [4, 160000] block of quaternions (row k, lane p). It exponentiates x0; sums the squares of x1 down each lane (a
  reduction over axis 0, so lane p gets the sum over k of x1(k, p)²), takes the reciprocal square root of that row of
  sums, broadcasts it back over the four rows and multiplies; slices the rows apart; and from there on every
  operation is lane by lane on vectors of length 160000, so at lane p the stored row c is the scalar covariance
  function of the three scales and the four normalised components at lane p — row c of the six-row concatenation.
-/
import proofs.«120002_j24979529793553_2_alg».proof.Proof.Gen.KernelIdeal.Frame
import proofs.«120002_j24979529793553_2_alg».proof.Proof.CovSpec
import proofs.«120002_j24979529793553_2_alg».proof.Proof.LibConcatRows
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Idealize.ShloMosaic.TcCoe

/-- The offsets of a load or store of a whole block are zero on both axes. -/
theorem zero_offsets : (![0, 0] : Fin 2 → Nat) = fun _ => 0 := funext fun a => by fin_cases a <;> rfl

/-- The reciprocal square root and the exponential of a vector, read at an index. -/
theorem rsqrt_apply {s : Shape} {φ : FTy} (a : FVec Ideal s φ) (i : s.Idx) : rsqrt a i = Ideal.rsqrt (a i) := rfl
theorem exp_apply {s : Shape} {φ : FTy} (a : FVec Ideal s φ) (i : s.Idx) : exp a i = Ideal.exp (a i) := rfl

/-- Reducing a [4, 160000] block over axis 0: the index of lane p with row k put back is (k, p). -/
theorem lift_lane (h : S4x160000.Reduces [0] S160000) (p : Fin 160000) (k : Fin 4) : h.lift (ix1 p) k = ix2 k p := by
  funext a; apply Fin.ext
  match a with
  | ⟨0, _⟩ => rfl
  | ⟨1, _⟩ => rfl

/-- The sum of squares down lane p of a [4, 160000] block. -/
theorem lane_sq (v : FVec Ideal S4x160000 .f32) (h : S4x160000.Reduces [0] S160000) (hφ : FKind.Formats .f32)
    (hacc : (0x00000000#32 : BitVec 32) = FKind.add.neutral .f32 hφ) (p : Fin 160000) :
    multiReduction .add [0] S160000 (mulf v v) 0x00000000#32 h hφ hacc (ix1 p) = ∑ k : Fin 4, v (ix2 k p) * v (ix2 k p) := by
  refine (Ideal.multiReduction_add_single (mulf v v) 0x00000000#32 h hφ hacc (ix1 p)).trans ?_
  refine Finset.sum_congr rfl fun k _ => ?_
  rw [lift_lane h p k]
  rfl

/-- The normalised quaternion block at (k, p): component k of lane p times the reciprocal square root of the lane's
    sum of squares. -/
theorem quat_apply (v3 : Vec Ideal S4x160000 .f32) (k : Fin 4) (p : Fin 160000) :
    k0_pay3 (F := Ideal) v3 (ix2 k p) = CovSpec.normMul (fun k' => v3 (ix2 k' p)) k := by
  unfold k0_pay3
  rw [shapeCast_self]
  refine (mulf_apply _ _ _).trans ?_
  refine congrArg (v3 (ix2 k p) * ·) ?_
  refine (broadcastTo_1b_ab_apply _ _ k p).trans ?_
  refine (rsqrt_apply _ _).trans ?_
  refine congrArg Ideal.rsqrt ?_
  refine (shapeCast_a_1a_apply _ _ 0 p).trans ?_
  exact lane_sq v3 _ _ _ p

/-- The four rows of the normalised block, each as a vector over the lanes. -/
theorem quat_row0 (v3 : Vec Ideal S4x160000 .f32) (p : Fin 160000) :
    k0_pay4 (F := Ideal) v3 (ix1 p) = k0_pay3 v3 (ix2 0 p) := by
  unfold k0_pay4
  refine (shapeCast_1a_a_apply _ _ p).trans ?_
  exact slice2_axis0_apply 0 _ _ 0 p 0 rfl
theorem quat_row1 (v3 : Vec Ideal S4x160000 .f32) (p : Fin 160000) :
    k0_pay5 (F := Ideal) v3 (ix1 p) = k0_pay3 v3 (ix2 1 p) := by
  unfold k0_pay5
  refine (shapeCast_1a_a_apply _ _ p).trans ?_
  exact slice2_axis0_apply 1 _ _ 0 p 1 rfl
theorem quat_row2 (v3 : Vec Ideal S4x160000 .f32) (p : Fin 160000) :
    k0_pay6 (F := Ideal) v3 (ix1 p) = k0_pay3 v3 (ix2 2 p) := by
  unfold k0_pay6
  refine (shapeCast_1a_a_apply _ _ p).trans ?_
  exact slice2_axis0_apply 2 _ _ 0 p 2 rfl
theorem quat_row3 (v3 : Vec Ideal S4x160000 .f32) (p : Fin 160000) :
    k0_pay7 (F := Ideal) v3 (ix1 p) = k0_pay3 v3 (ix2 3 p) := by
  unfold k0_pay7
  refine (shapeCast_1a_a_apply _ _ p).trans ?_
  exact slice2_axis0_apply 3 _ _ 0 p 3 rfl

/-- The exponentiated scales at (j, p). -/
theorem scale_apply (v0 : Vec Ideal S3x160000 .f32) (j : Fin 3) (p : Fin 160000) :
    k0_pay2 (F := Ideal) v0 (ix2 j p) = Ideal.exp (v0 (ix2 j p)) := by
  unfold k0_pay2
  rw [shapeCast_self]
  exact exp_apply _ _

/-- Its three rows, each as a vector over the lanes. -/
theorem scale_row0 (v0 : Vec Ideal S3x160000 .f32) (p : Fin 160000) :
    k0_pay8 (F := Ideal) v0 (ix1 p) = k0_pay2 v0 (ix2 0 p) := by
  unfold k0_pay8
  refine (shapeCast_1a_a_apply _ _ p).trans ?_
  exact slice2_axis0_apply 0 _ _ 0 p 0 rfl
theorem scale_row1 (v0 : Vec Ideal S3x160000 .f32) (p : Fin 160000) :
    k0_pay9 (F := Ideal) v0 (ix1 p) = k0_pay2 v0 (ix2 1 p) := by
  unfold k0_pay9
  refine (shapeCast_1a_a_apply _ _ p).trans ?_
  exact slice2_axis0_apply 1 _ _ 0 p 1 rfl
theorem scale_row2 (v0 : Vec Ideal S3x160000 .f32) (p : Fin 160000) :
    k0_pay10 (F := Ideal) v0 (ix1 p) = k0_pay2 v0 (ix2 2 p) := by
  unfold k0_pay10
  refine (shapeCast_1a_a_apply _ _ p).trans ?_
  exact slice2_axis0_apply 2 _ _ 0 p 2 rfl

/-! Row c of the stored block at lane p: the concatenation picks row c, a vector over the lanes, and what that vector
    holds at lane p is the covariance function of the scale rows and the quaternion rows at lane p (every operation
    between them is lane by lane). -/

theorem stored_row0 (x0 : Vec Ideal S3x160000 .f32) (x1 : Vec Ideal S4x160000 .f32) (p : Fin 160000) :
    out0_2 (F := Ideal) x0 x1 (ix2 (0 : Fin 6) p)
      = CovSpec.cov (fun j => (![k0_pay8 x0, k0_pay9 x0, k0_pay10 x0] : Fin 3 → _) j (ix1 p))
          (fun k => (![k0_pay4 x1, k0_pay5 x1, k0_pay6 x1, k0_pay7 x1] : Fin 4 → _) k (ix1 p)) 0 := by
  unfold out0_2
  rw [View.canon_unit_zero zero_offsets]
  simp only [View.ld_unit_zero (S := S3x160000) zero_offsets, View.ld_unit_zero (S := S4x160000) zero_offsets]
  unfold k0_pay1
  refine (ConcatRows.rows6_at0 _ _ _ _ _ _ _ p).trans ?_
  refine (shapeCast_a_1a_apply _ _ 0 p).trans ?_
  rfl

theorem stored_row1 (x0 : Vec Ideal S3x160000 .f32) (x1 : Vec Ideal S4x160000 .f32) (p : Fin 160000) :
    out0_2 (F := Ideal) x0 x1 (ix2 (1 : Fin 6) p)
      = CovSpec.cov (fun j => (![k0_pay8 x0, k0_pay9 x0, k0_pay10 x0] : Fin 3 → _) j (ix1 p))
          (fun k => (![k0_pay4 x1, k0_pay5 x1, k0_pay6 x1, k0_pay7 x1] : Fin 4 → _) k (ix1 p)) 1 := by
  unfold out0_2
  rw [View.canon_unit_zero zero_offsets]
  simp only [View.ld_unit_zero (S := S3x160000) zero_offsets, View.ld_unit_zero (S := S4x160000) zero_offsets]
  unfold k0_pay1
  refine (ConcatRows.rows6_at1 _ _ _ _ _ _ _ p).trans ?_
  refine (shapeCast_a_1a_apply _ _ 0 p).trans ?_
  rfl

theorem stored_row2 (x0 : Vec Ideal S3x160000 .f32) (x1 : Vec Ideal S4x160000 .f32) (p : Fin 160000) :
    out0_2 (F := Ideal) x0 x1 (ix2 (2 : Fin 6) p)
      = CovSpec.cov (fun j => (![k0_pay8 x0, k0_pay9 x0, k0_pay10 x0] : Fin 3 → _) j (ix1 p))
          (fun k => (![k0_pay4 x1, k0_pay5 x1, k0_pay6 x1, k0_pay7 x1] : Fin 4 → _) k (ix1 p)) 2 := by
  unfold out0_2
  rw [View.canon_unit_zero zero_offsets]
  simp only [View.ld_unit_zero (S := S3x160000) zero_offsets, View.ld_unit_zero (S := S4x160000) zero_offsets]
  unfold k0_pay1
  refine (ConcatRows.rows6_at2 _ _ _ _ _ _ _ p).trans ?_
  refine (shapeCast_a_1a_apply _ _ 0 p).trans ?_
  rfl

theorem stored_row3 (x0 : Vec Ideal S3x160000 .f32) (x1 : Vec Ideal S4x160000 .f32) (p : Fin 160000) :
    out0_2 (F := Ideal) x0 x1 (ix2 (3 : Fin 6) p)
      = CovSpec.cov (fun j => (![k0_pay8 x0, k0_pay9 x0, k0_pay10 x0] : Fin 3 → _) j (ix1 p))
          (fun k => (![k0_pay4 x1, k0_pay5 x1, k0_pay6 x1, k0_pay7 x1] : Fin 4 → _) k (ix1 p)) 3 := by
  unfold out0_2
  rw [View.canon_unit_zero zero_offsets]
  simp only [View.ld_unit_zero (S := S3x160000) zero_offsets, View.ld_unit_zero (S := S4x160000) zero_offsets]
  unfold k0_pay1
  refine (ConcatRows.rows6_at3 _ _ _ _ _ _ _ p).trans ?_
  refine (shapeCast_a_1a_apply _ _ 0 p).trans ?_
  rfl

theorem stored_row4 (x0 : Vec Ideal S3x160000 .f32) (x1 : Vec Ideal S4x160000 .f32) (p : Fin 160000) :
    out0_2 (F := Ideal) x0 x1 (ix2 (4 : Fin 6) p)
      = CovSpec.cov (fun j => (![k0_pay8 x0, k0_pay9 x0, k0_pay10 x0] : Fin 3 → _) j (ix1 p))
          (fun k => (![k0_pay4 x1, k0_pay5 x1, k0_pay6 x1, k0_pay7 x1] : Fin 4 → _) k (ix1 p)) 4 := by
  unfold out0_2
  rw [View.canon_unit_zero zero_offsets]
  simp only [View.ld_unit_zero (S := S3x160000) zero_offsets, View.ld_unit_zero (S := S4x160000) zero_offsets]
  unfold k0_pay1
  refine (ConcatRows.rows6_at4 _ _ _ _ _ _ _ p).trans ?_
  refine (shapeCast_a_1a_apply _ _ 0 p).trans ?_
  rfl

theorem stored_row5 (x0 : Vec Ideal S3x160000 .f32) (x1 : Vec Ideal S4x160000 .f32) (p : Fin 160000) :
    out0_2 (F := Ideal) x0 x1 (ix2 (5 : Fin 6) p)
      = CovSpec.cov (fun j => (![k0_pay8 x0, k0_pay9 x0, k0_pay10 x0] : Fin 3 → _) j (ix1 p))
          (fun k => (![k0_pay4 x1, k0_pay5 x1, k0_pay6 x1, k0_pay7 x1] : Fin 4 → _) k (ix1 p)) 5 := by
  unfold out0_2
  rw [View.canon_unit_zero zero_offsets]
  simp only [View.ld_unit_zero (S := S3x160000) zero_offsets, View.ld_unit_zero (S := S4x160000) zero_offsets]
  unfold k0_pay1
  refine (ConcatRows.rows6_at5 _ _ _ _ _ _ _ p).trans ?_
  refine (shapeCast_a_1a_apply _ _ 0 p).trans ?_
  rfl

/-- The stored block at (c, p) over the scale rows and quaternion rows at lane p. -/
theorem stored_rows (x0 : Vec Ideal S3x160000 .f32) (x1 : Vec Ideal S4x160000 .f32) (c : Fin 6) (p : Fin 160000) :
    out0_2 (F := Ideal) x0 x1 (ix2 c p)
      = CovSpec.cov (fun j => (![k0_pay8 x0, k0_pay9 x0, k0_pay10 x0] : Fin 3 → _) j (ix1 p))
          (fun k => (![k0_pay4 x1, k0_pay5 x1, k0_pay6 x1, k0_pay7 x1] : Fin 4 → _) k (ix1 p)) c := by
  match c with
  | ⟨0, _⟩ => exact stored_row0 x0 x1 p
  | ⟨1, _⟩ => exact stored_row1 x0 x1 p
  | ⟨2, _⟩ => exact stored_row2 x0 x1 p
  | ⟨3, _⟩ => exact stored_row3 x0 x1 p
  | ⟨4, _⟩ => exact stored_row4 x0 x1 p
  | ⟨5, _⟩ => exact stored_row5 x0 x1 p

/-- The scale rows at lane p are the exponentials of the block's column p. -/
theorem scales_at (x0 : Vec Ideal S3x160000 .f32) (p : Fin 160000) :
    (fun j => (![k0_pay8 x0, k0_pay9 x0, k0_pay10 x0] : Fin 3 → _) j (ix1 p)) = fun j => Ideal.exp (x0 (ix2 j p)) := by
  funext j
  match j with
  | ⟨0, _⟩ => exact (scale_row0 x0 p).trans (scale_apply x0 0 p)
  | ⟨1, _⟩ => exact (scale_row1 x0 p).trans (scale_apply x0 1 p)
  | ⟨2, _⟩ => exact (scale_row2 x0 p).trans (scale_apply x0 2 p)

/-- The quaternion rows at lane p are the block's column p, normalised. -/
theorem quats_at (x1 : Vec Ideal S4x160000 .f32) (p : Fin 160000) :
    (fun k => (![k0_pay4 x1, k0_pay5 x1, k0_pay6 x1, k0_pay7 x1] : Fin 4 → _) k (ix1 p))
      = CovSpec.normMul fun k => x1 (ix2 k p) := by
  funext k
  match k with
  | ⟨0, _⟩ => exact (quat_row0 x1 p).trans (quat_apply x1 0 p)
  | ⟨1, _⟩ => exact (quat_row1 x1 p).trans (quat_apply x1 1 p)
  | ⟨2, _⟩ => exact (quat_row2 x1 p).trans (quat_apply x1 2 p)
  | ⟨3, _⟩ => exact (quat_row3 x1 p).trans (quat_apply x1 3 p)

/-- THE BODY AT AN INDEX: row c, lane p of what the body stores is the covariance entry c of the exponentials of
    column p of the scale block and of the normalised column p of the quaternion block. -/
theorem stored_apply (x0 : Vec Ideal S3x160000 .f32) (x1 : Vec Ideal S4x160000 .f32) (c : Fin 6) (p : Fin 160000) :
    out0_2 (F := Ideal) x0 x1 (ix2 c p)
      = CovSpec.cov (fun j => Ideal.exp (x0 (ix2 j p))) (CovSpec.normMul fun k => x1 (ix2 k p)) c := by
  rw [stored_rows x0 x1 c p, scales_at x0 p, quats_at x1 p]

end Cert.KernelIdeal.Body

end
-- ==== Proof.KerValue.lean ====
/-
  The kernel's program as a function of its two arguments.

  The program transposes both arguments, so that the Gaussians run along the long axis; launches the body over 25
  grid points, point t taking columns t · 160000 … t · 160000 + 159999 of both transposed arrays whole in the short
  axis and writing the same columns of a [6, 4000000] array; and transposes that array back. Hence: element (j, p) of
  an input block at point t is the argument's entry (t · 160000 + p, j); what point t writes back is block t of ONE
  function of the arguments, the [6, 4000000] array whose entry (c, n) is covariance number c of Gaussian n
  (the body read at an index, and the two block reads); the blocks tile that array, so it ends holding the function;
  and the result is its transpose, entry (n, c) covariance number c of Gaussian n.
-/
import proofs.«120002_j24979529793553_2_alg».proof.Proof.Gen.KernelIdeal.Frame
import proofs.«120002_j24979529793553_2_alg».proof.Proof.CovSpec
import proofs.«120002_j24979529793553_2_alg».proof.Proof.KerBody
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.KerValue

open Cert.KernelIdeal Cert.KernelIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-! ## The arrays the region finds, and its blocks -/

/-- The first host line transposes the log-scales: the region finds them as a [3, 4000000] array. -/
theorem V_v0 (c : Dev nD) : (V m c main_v0 : S3x4000000.Idx → EReal)
    = transpose S3x4000000 [1, 0] (m ((c : Thread nD τ).loc main_arg0)) transposes_S4000000x3_S3x4000000_1_0 := by
  show StableHlo.after hostOps0 (fun b => m (c, b)) (Proc.devRef .tc main_v0) = _
  after_results

/-- The second host line transposes the quaternions: the region finds them as a [4, 4000000] array. -/
theorem V_v1 (c : Dev nD) : (V m c main_v1 : S4x4000000.Idx → EReal)
    = transpose S4x4000000 [1, 0] (m ((c : Thread nD τ).loc main_arg1)) transposes_S4000000x4_S4x4000000_1_0 := by
  show StableHlo.after hostOps0 (fun b => m (c, b)) (Proc.devRef .tc main_v1) = _
  after_results

/-- The three index maps, decided over the 25 grid points: block row 0, block column t. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- An element of input window 0's block at point t sits, on each axis, at block index × block size + its coordinate. -/
theorem emb0_val (t : Fin cfg0.N) (j : Fin 3) (p : Fin 160000) (a : Fin 2) :
    ((((cfg0.win 0).blk t).view.emb (ix2 j p)) a).val = win0_0.index t a * S3x160000.size a + ((ix2 j p : S3x160000.Idx) a).val := by
  show ((((View.whole main_v0).slice (win0_0.rect t)).emb (ix2 j p)) a).val = _
  rw [View.emb_slice, Function.Embedding.trans_apply, View.emb_whole, Function.Embedding.refl_apply]
  exact win0_0.rect_emb_val t (ix2 j p) a

/-- The same for input window 1. -/
theorem emb1_val (t : Fin cfg0.N) (k : Fin 4) (p : Fin 160000) (a : Fin 2) :
    ((((cfg0.win 1).blk t).view.emb (ix2 k p)) a).val = win0_1.index t a * S4x160000.size a + ((ix2 k p : S4x160000.Idx) a).val := by
  show ((((View.whole main_v1).slice (win0_1.rect t)).emb (ix2 k p)) a).val = _
  rw [View.emb_slice, Function.Embedding.trans_apply, View.emb_whole, Function.Embedding.refl_apply]
  exact win0_1.rect_emb_val t (ix2 k p) a

/-- The same for the output window. -/
theorem emb2_val (t : Fin cfg0.N) (cc : Fin 6) (p : Fin 160000) (a : Fin 2) :
    ((((cfg0.win 2).blk t).view.emb (ix2 cc p)) a).val = win0_2.index t a * S6x160000.size a + ((ix2 cc p : S6x160000.Idx) a).val := by
  show ((((View.whole main_v2).slice (win0_2.rect t)).emb (ix2 cc p)) a).val = _
  rw [View.emb_slice, Function.Embedding.trans_apply, View.emb_whole, Function.Embedding.refl_apply]
  exact win0_2.rect_emb_val t (ix2 cc p) a

/-- Element (j, p) of the log-scale block at point t is log-scale j of Gaussian n = t · 160000 + p. -/
theorem blk0_apply (c : Dev nD) (t : Fin cfg0.N) (j : Fin 3) (p : Fin 160000) (n : Fin 4000000)
    (hn : n.val = t.val * 160000 + p.val) :
    iblk m c 0 t (ix2 j p) = m ((c : Thread nD τ).loc main_arg0) (ix2 n j) := by
  show V m c main_v0 (((cfg0.win 0).blk t).view.emb (ix2 j p)) = _
  rw [V_v0]
  obtain ⟨e0, e1, -⟩ := idx_facts t
  refine transpose_apply _ _ _ _ (ix2 n j) (fun b => ?_)
  match b with
  | ⟨0, _⟩ =>
    refine Eq.trans ?_ (emb0_val t j p ⟨0, by decide⟩).symm
    show j.val = win0_0.index t (0 : Fin 2) * 3 + j.val
    rw [e0, Nat.zero_mul, Nat.zero_add]
  | ⟨1, _⟩ =>
    refine Eq.trans ?_ (emb0_val t j p ⟨1, by decide⟩).symm
    show n.val = win0_0.index t (1 : Fin 2) * 160000 + p.val
    rw [e1]; exact hn

/-- Element (k, p) of the quaternion block at point t is component k of Gaussian n = t · 160000 + p. -/
theorem blk1_apply (c : Dev nD) (t : Fin cfg0.N) (k : Fin 4) (p : Fin 160000) (n : Fin 4000000)
    (hn : n.val = t.val * 160000 + p.val) :
    iblk m c 1 t (ix2 k p) = m ((c : Thread nD τ).loc main_arg1) (ix2 n k) := by
  show V m c main_v1 (((cfg0.win 1).blk t).view.emb (ix2 k p)) = _
  rw [V_v1]
  obtain ⟨-, -, e2, e3, -⟩ := idx_facts t
  refine transpose_apply _ _ _ _ (ix2 n k) (fun b => ?_)
  match b with
  | ⟨0, _⟩ =>
    refine Eq.trans ?_ (emb1_val t k p ⟨0, by decide⟩).symm
    show k.val = win0_1.index t (0 : Fin 2) * 4 + k.val
    rw [e2, Nat.zero_mul, Nat.zero_add]
  | ⟨1, _⟩ =>
    refine Eq.trans ?_ (emb1_val t k p ⟨1, by decide⟩).symm
    show n.val = win0_1.index t (1 : Fin 2) * 160000 + p.val
    rw [e3]; exact hn

/-- Where output window 2's block at point t puts its element (cc, p): row cc, column t · 160000 + p. -/
theorem emb2_eq (t : Fin cfg0.N) (cc : Fin 6) (p : Fin 160000) (n : Fin 4000000) (hn : n.val = t.val * 160000 + p.val) :
    ((cfg0.win 2).blk t).view.emb (ix2 cc p) = (ix2 cc n : S6x4000000.Idx) := by
  obtain ⟨-, -, -, -, e4, e5⟩ := idx_facts t
  funext a; apply Fin.ext
  match a with
  | ⟨0, _⟩ =>
    refine (emb2_val t cc p ⟨0, by decide⟩).trans ?_
    show win0_2.index t (0 : Fin 2) * 6 + cc.val = cc.val
    omega
  | ⟨1, _⟩ =>
    refine (emb2_val t cc p ⟨1, by decide⟩).trans ?_
    show win0_2.index t (1 : Fin 2) * 160000 + p.val = n.val
    omega

/-- An index of the output array is in point t's block iff each coordinate is in the block's range on its axis. -/
theorem mem_blk2 (t : Fin cfg0.N) (i : S6x4000000.Idx) :
    i ∈ ((cfg0.win 2).blk t).view.set ↔ ∀ a : Fin 2, win0_2.index t a * S6x160000.size a ≤ (i a).val ∧ (i a).val < win0_2.index t a * S6x160000.size a + S6x160000.size a := by
  show i ∈ ((View.whole main_v2).slice (win0_2.rect t)).set ↔ _
  rw [View.set_slice_whole, Rect.mem_set_unit]
  exact Iff.rfl

/-- The 25 blocks of 160000 columns tile the 4000000 columns: column n is in the block of point n / 160000. -/
theorem cover2 (i : S6x4000000.Idx) : ∃ t : Fin cfg0.N, (cfg0.win 2).flush t = true ∧ i ∈ ((cfg0.win 2).blk t).view.set := by
  have hi0 : (i 0).val < 6 := (i 0).isLt
  have hi1 : (i 1).val < 4000000 := (i 1).isLt
  have ht : (i 1).val / 160000 < cfg0.N := by show _ < grid0.N; rw [N_0]; omega
  obtain ⟨-, -, -, -, e4, e5⟩ := idx_facts ⟨(i 1).val / 160000, ht⟩
  refine ⟨⟨(i 1).val / 160000, ht⟩, flush0_2 _, ?_⟩
  rw [mem_blk2]
  intro a
  match a with
  | ⟨0, _⟩ =>
    show win0_2.index ⟨(i 1).val / 160000, ht⟩ (0 : Fin 2) * 6 ≤ (i 0).val ∧ (i 0).val < win0_2.index ⟨(i 1).val / 160000, ht⟩ (0 : Fin 2) * 6 + 6
    omega
  | ⟨1, _⟩ =>
    show win0_2.index ⟨(i 1).val / 160000, ht⟩ (1 : Fin 2) * 160000 ≤ (i 1).val ∧ (i 1).val < win0_2.index ⟨(i 1).val / 160000, ht⟩ (1 : Fin 2) * 160000 + 160000
    have e5' : win0_2.index ⟨(i 1).val / 160000, ht⟩ (1 : Fin 2) = (i 1).val / 160000 := e5
    omega

/-! ## What each point writes back, and the array the region leaves -/

/-- The [6, 4000000] array the region leaves: entry (c, n) is covariance number c of Gaussian n. -/
abbrev regionOut (c : Dev nD) : S6x4000000.Idx → EReal :=
  fun i => CovSpec.covMul (m ((c : Thread nD τ).loc main_arg0)) (m ((c : Thread nD τ).loc main_arg1)) (i 1) (i 0)

/-- WHAT POINT t WRITES BACK is block t of that array: the body at (c, p) over the two input blocks' columns p, which
    are Gaussian t · 160000 + p's log-scales and quaternion. -/
theorem flushed_eq (c : Dev nD) (t : Fin cfg0.N) :
    (dats m 0 c).flushed 2 t = ((cfg0.win 2).blk t).view.read (Elt Ideal) (regionOut m c) := by
  show (cfg0.win 2).cut (grid0.coords t) ((dats m 0 c).after 2 t) = _
  rw [after0_2]
  funext y
  obtain ⟨cc, p, rfl⟩ : ∃ (cc : Fin 6) (p : Fin 160000), y = ix2 cc p := ⟨y 0, y 1, eq_ix2 y⟩
  have ht : t.val < 25 := lt_of_lt_of_eq t.isLt N_0
  have hp : p.val < 160000 := p.isLt
  have hlt : t.val * 160000 + p.val < 4000000 := by omega
  show out0_2 (iblk m c 0 t) (iblk m c 1 t) (ix2 cc p) = regionOut m c (((cfg0.win 2).blk t).view.emb (ix2 cc p))
  rw [emb2_eq t cc p ⟨t.val * 160000 + p.val, hlt⟩ rfl]
  refine (Body.stored_apply (iblk m c 0 t) (iblk m c 1 t) cc p).trans ?_
  show CovSpec.cov _ _ cc = CovSpec.cov _ _ cc
  refine congrArg₂ (fun s q => CovSpec.cov s q cc) (funext fun j => ?_) (congrArg CovSpec.normMul (funext fun k => ?_))
  · exact congrArg Ideal.exp (blk0_apply m c t j p _ rfl)
  · exact blk1_apply m c t k p _ rfl

/-- THE ARRAY after the region: the blocks tile it, so it is that function everywhere. -/
theorem final2 (c : Dev nD) : (dats m 0 c).arrAt 2 cfg0.N = regionOut m c :=
  (dats m 0 c).arrAt_eq_of_cover 2 (regionOut m c) (fun t _ => flushed_eq m c t) cover2

/-! ## The transpose after the region, and the run -/

/-- The line after the region transposes the array the region left. -/
theorem tail_v3 (c : Dev nD) : (Pipeline.afterTail₀ cfgs (dats m) 0 (V0 m) [hostOps1] c main_v3 : S4000000x6.Idx → EReal)
    = transpose S4000000x6 [1, 0] ((dats m 0 c).arrAt 2 cfg0.N) transposes_S6x4000000_S4000000x6_1_0 := by
  unfold Pipeline.afterTail₀
  show StableHlo.after hostOps1 _ (Proc.devRef .tc main_v3) = _
  after_results
  exact congrArg (fun x => transpose S4000000x6 [1, 0] x transposes_S6x4000000_S4000000x6_1_0)
    (Pipeline.withArrays_arr spec0 launch0.win.arr_inj c _ _ 2)

/-- The program's result: entry (n, c) is covariance number c of Gaussian n. -/
theorem result (c : Dev nD) :
    (Pipeline.afterTail₀ cfgs (dats m) 0 (V0 m) [hostOps1] c main_v3 : S4000000x6.Idx → EReal)
      = fun i => CovSpec.covMul (m ((c : Thread nD τ).loc main_arg0)) (m ((c : Thread nD τ).loc main_arg1)) (i 0) (i 1) := by
  rw [tail_v3, final2]
  funext i
  obtain ⟨n, cc, rfl⟩ : ∃ (n : Fin 4000000) (cc : Fin 6), i = ix2 n cc := ⟨i 0, i 1, eq_ix2 i⟩
  exact transpose_ix2_apply (regionOut m c) _ n cc

/-- Every weakly fair execution of the kernel's program terminates with the result at that function of the arguments
    and the arguments unchanged. -/
theorem run : θ_run defs (onTc (τ := τ) (main (F := Ideal))) ⟨m, fun _ => 0, ρ⟩ fun r => ∀ c : Dev nD,
      r.2.mem ((c.tc : Thread nD τ).loc main_v3)
        = (fun i => CovSpec.covMul (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans (result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KerValue

end
-- ==== Proof.LibConcatUnit.lean ====
/-
  A concatenation of pieces whose extent along the joined axis is one, read at an index given by coordinates:
  the piece the coordinate on the joined axis names, read at the same remaining coordinates.
  Two layouts: columns [R, 1] joined into [R, N], and slabs [R, 1, C] joined along the middle axis into [R, N, C].
-/
import Idealize.ShloMosaic.Lib.Pipeline.Value
import Idealize.ShloMosaic.Lib.ValueIdx

noncomputable section

namespace Idealize.ShloMosaic.ConcatUnit

open Idealize.ShloMosaic Idealize.ShloMosaic.ValueIdx

variable {α : Type}

/-- N columns of shape [R, 1] joined along axis 1: entry (r, n) of the result is entry (r, 0) of column n. -/
theorem concatenate_cols_apply {R N : Nat} (f : Fin N → ((⟨2, ![R, 1]⟩ : Shape).Idx → α))
    (xs : List ((s : Shape) × (s.Idx → α)))
    (hxs : xs = List.ofFn fun n : Fin N => (⟨⟨2, ![R, 1]⟩, f n⟩ : (s : Shape) × (s.Idx → α)))
    (h : Shape.Concatenates (xs.map (·.1)) ⟨2, ![R, N]⟩ 1) (r : Fin R) (n : Fin N) :
    concatenate ⟨2, ![R, N]⟩ 1 xs h (ix2 r n) = f n (ix2 r 0) := by
  subst hxs
  exact concatenate_ofFn_unit_apply (t := ⟨2, ![R, N]⟩) (s₁ := ⟨2, ![R, 1]⟩) 1 f h rfl rfl (ix2 r n) n rfl (ix2 r 0)
    (fun b hb => by match b with | ⟨0, _⟩ => rfl | ⟨1, _⟩ => exact absurd rfl hb)

/-- N slabs of shape [R, 1, C] joined along axis 1: entry (r, n, c) of the result is entry (r, 0, c) of slab n. -/
theorem concatenate_mid_apply {R N C : Nat} (f : Fin N → ((⟨3, ![R, 1, C]⟩ : Shape).Idx → α))
    (xs : List ((s : Shape) × (s.Idx → α)))
    (hxs : xs = List.ofFn fun n : Fin N => (⟨⟨3, ![R, 1, C]⟩, f n⟩ : (s : Shape) × (s.Idx → α)))
    (h : Shape.Concatenates (xs.map (·.1)) ⟨3, ![R, N, C]⟩ 1) (r : Fin R) (n : Fin N) (c : Fin C) :
    concatenate ⟨3, ![R, N, C]⟩ 1 xs h (ix3 r n c) = f n (ix3 r 0 c) := by
  subst hxs
  exact concatenate_ofFn_unit_apply (t := ⟨3, ![R, N, C]⟩) (s₁ := ⟨3, ![R, 1, C]⟩) 1 f h rfl rfl (ix3 r n c) n rfl (ix3 r 0 c)
    (fun b hb => by match b with | ⟨0, _⟩ => rfl | ⟨1, _⟩ => exact absurd rfl hb | ⟨2, _⟩ => rfl)

/-- Three columns joined: entry (r, j) is entry (r, 0) of column j, the column chosen by cases on j. -/
theorem cols3_apply {R : Nat} (a b c : (⟨2, ![R, 1]⟩ : Shape).Idx → α)
    (h : Shape.Concatenates [(⟨2, ![R, 1]⟩ : Shape), ⟨2, ![R, 1]⟩, ⟨2, ![R, 1]⟩] ⟨2, ![R, 3]⟩ 1) (r : Fin R) (j : Fin 3) :
    concatenate ⟨2, ![R, 3]⟩ 1 [⟨⟨2, ![R, 1]⟩, a⟩, ⟨⟨2, ![R, 1]⟩, b⟩, ⟨⟨2, ![R, 1]⟩, c⟩] h (ix2 r j)
      = (match j with | ⟨0, _⟩ => a | ⟨1, _⟩ => b | ⟨2, _⟩ => c) (ix2 r 0) := by
  refine (concatenate_cols_apply ![a, b, c] _ rfl h r j).trans ?_
  match j with
  | ⟨0, _⟩ => rfl
  | ⟨1, _⟩ => rfl
  | ⟨2, _⟩ => rfl

/-- Three slabs joined along the middle axis: entry (r, i, c) is entry (r, 0, c) of slab i, chosen by cases on i. -/
theorem slabs3_apply {R C : Nat} (a b c : (⟨3, ![R, 1, C]⟩ : Shape).Idx → α)
    (h : Shape.Concatenates [(⟨3, ![R, 1, C]⟩ : Shape), ⟨3, ![R, 1, C]⟩, ⟨3, ![R, 1, C]⟩] ⟨3, ![R, 3, C]⟩ 1)
    (r : Fin R) (i : Fin 3) (k : Fin C) :
    concatenate ⟨3, ![R, 3, C]⟩ 1 [⟨⟨3, ![R, 1, C]⟩, a⟩, ⟨⟨3, ![R, 1, C]⟩, b⟩, ⟨⟨3, ![R, 1, C]⟩, c⟩] h (ix3 r i k)
      = (match i with | ⟨0, _⟩ => a | ⟨1, _⟩ => b | ⟨2, _⟩ => c) (ix3 r 0 k) := by
  refine (concatenate_mid_apply ![a, b, c] _ rfl h r i k).trans ?_
  match i with
  | ⟨0, _⟩ => rfl
  | ⟨1, _⟩ => rfl
  | ⟨2, _⟩ => rfl

end Idealize.ShloMosaic.ConcatUnit

end
-- ==== Proof.RefValue.lean ====
/-
  The reference program read at one output position.

  Row n, position c of the reference's result is followed back through the program, one operation at a time, to the
  two inputs: the sum of squares of quaternion n (with the initial value the sum starts from), its square root, the
  four quotients, the three scales (each with the factor 1 it is multiplied by), the nine entries of the rotation
  matrix, the scaled matrix L = R · diag s, the products L · Lᵀ summed over three terms, and the six entries of the
  upper triangle. Every step is a reading of one element from one element of each operand; the only arithmetic is
  on coordinates (a flat position 3 i + j among nine columns, a division by one in a reshape).
-/
import proofs.«120002_j24979529793553_2_alg».proof.Proof.RefRead
import proofs.«120002_j24979529793553_2_alg».proof.Proof.CovSpec
import proofs.«120002_j24979529793553_2_alg».proof.Proof.LibConcatUnit
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Cert.CovSpec
open Idealize.ShloMosaic Idealize.ShloMosaic.TcCoe Idealize.SL.Sem Idealize.ShloMosaic.StableHlo
open Idealize.ShloMosaic.ValueIdx Idealize.ShloMosaic.ConcatUnit

/-! ## Two indices with equal coordinates are equal -/

theorem ext1 {m : Nat} {p q : (⟨1, ![m]⟩ : Shape).Idx} (h0 : (p 0).val = (q 0).val) : p = q :=
  funext fun a => Fin.ext (by match a with | ⟨0, _⟩ => exact h0)

theorem ext2 {m0 m1 : Nat} {p q : (⟨2, ![m0, m1]⟩ : Shape).Idx} (h0 : (p 0).val = (q 0).val)
    (h1 : (p 1).val = (q 1).val) : p = q :=
  funext fun a => Fin.ext (by match a with | ⟨0, _⟩ => exact h0 | ⟨1, _⟩ => exact h1)

theorem ext3 {m0 m1 m2 : Nat} {p q : (⟨3, ![m0, m1, m2]⟩ : Shape).Idx} (h0 : (p 0).val = (q 0).val)
    (h1 : (p 1).val = (q 1).val) (h2 : (p 2).val = (q 2).val) : p = q :=
  funext fun a => Fin.ext (by match a with | ⟨0, _⟩ => exact h0 | ⟨1, _⟩ => exact h1 | ⟨2, _⟩ => exact h2)

/-! ## Entry k of a list of nine, and of a list of six -/

theorem vec9_0 {α : Type} (a0 a1 a2 a3 a4 a5 a6 a7 a8 : α) : (![a0, a1, a2, a3, a4, a5, a6, a7, a8] : Fin 9 → α) 0 = a0 := rfl
theorem vec9_1 {α : Type} (a0 a1 a2 a3 a4 a5 a6 a7 a8 : α) : (![a0, a1, a2, a3, a4, a5, a6, a7, a8] : Fin 9 → α) 1 = a1 := rfl
theorem vec9_2 {α : Type} (a0 a1 a2 a3 a4 a5 a6 a7 a8 : α) : (![a0, a1, a2, a3, a4, a5, a6, a7, a8] : Fin 9 → α) 2 = a2 := rfl
theorem vec9_3 {α : Type} (a0 a1 a2 a3 a4 a5 a6 a7 a8 : α) : (![a0, a1, a2, a3, a4, a5, a6, a7, a8] : Fin 9 → α) 3 = a3 := rfl
theorem vec9_4 {α : Type} (a0 a1 a2 a3 a4 a5 a6 a7 a8 : α) : (![a0, a1, a2, a3, a4, a5, a6, a7, a8] : Fin 9 → α) 4 = a4 := rfl
theorem vec9_5 {α : Type} (a0 a1 a2 a3 a4 a5 a6 a7 a8 : α) : (![a0, a1, a2, a3, a4, a5, a6, a7, a8] : Fin 9 → α) 5 = a5 := rfl
theorem vec9_6 {α : Type} (a0 a1 a2 a3 a4 a5 a6 a7 a8 : α) : (![a0, a1, a2, a3, a4, a5, a6, a7, a8] : Fin 9 → α) 6 = a6 := rfl
theorem vec9_7 {α : Type} (a0 a1 a2 a3 a4 a5 a6 a7 a8 : α) : (![a0, a1, a2, a3, a4, a5, a6, a7, a8] : Fin 9 → α) 7 = a7 := rfl
theorem vec9_8 {α : Type} (a0 a1 a2 a3 a4 a5 a6 a7 a8 : α) : (![a0, a1, a2, a3, a4, a5, a6, a7, a8] : Fin 9 → α) 8 = a8 := rfl
theorem vec6_0 {α : Type} (a0 a1 a2 a3 a4 a5 : α) : (![a0, a1, a2, a3, a4, a5] : Fin 6 → α) 0 = a0 := rfl
theorem vec6_1 {α : Type} (a0 a1 a2 a3 a4 a5 : α) : (![a0, a1, a2, a3, a4, a5] : Fin 6 → α) 1 = a1 := rfl
theorem vec6_2 {α : Type} (a0 a1 a2 a3 a4 a5 : α) : (![a0, a1, a2, a3, a4, a5] : Fin 6 → α) 2 = a2 := rfl
theorem vec6_3 {α : Type} (a0 a1 a2 a3 a4 a5 : α) : (![a0, a1, a2, a3, a4, a5] : Fin 6 → α) 3 = a3 := rfl
theorem vec6_4 {α : Type} (a0 a1 a2 a3 a4 a5 : α) : (![a0, a1, a2, a3, a4, a5] : Fin 6 → α) 4 = a4 := rfl
theorem vec6_5 {α : Type} (a0 a1 a2 a3 a4 a5 : α) : (![a0, a1, a2, a3, a4, a5] : Fin 6 → α) 5 = a5 := rfl

section Reads

variable (x0 : (⟨S4000000x3, .f32⟩ : BufTy).Contents (Elt Ideal)) (x1 : (⟨S4000000x4, .f32⟩ : BufTy).Contents (Elt Ideal)) (n : Fin 4000000)

/-- Quaternion n divided by its Euclidean norm: component k over the square root of the sum of squares. -/
def qn (k : Fin 4) : EReal := Ideal.div (x1 (ix2 n k)) (Ideal.sqrt (c0 + sqNorm x1 n))

/-- The three scales of row n: the exponential of each log-scale, times one. -/
def sn (j : Fin 3) : EReal := c1 * Ideal.exp (x0 (ix2 n j))

/-- The rotation matrix of the normalised quaternion of row n. -/
def Rn (i j : Fin 3) : EReal := rot (qn x1 n 0) (qn x1 n 1) (qn x1 n 2) (qn x1 n 3) i j

/-! ## The sum of squares, its square root, and the four quotients -/

theorem idx_sq (k : Fin 4) : idx_main_call0_v1 (ix1 n) k = ix2 n k := ext2 rfl rfl

/-- The reduction over the four squares of row n: the initial value plus their sum. -/
theorem sqNorm_read : val_main_call0_v1 (F := Ideal) x1 (ix1 n) = c0 + sqNorm x1 n := by
  rewrite [val_main_call0_v1_apply]
  refine congrArg (c0 + ·) (Finset.sum_congr rfl fun k _ => ?_)
  rewrite [idx_sq]
  rfl

theorem idx_v4 (k : Fin 4) : idx_main_v4 (ix2 n k) = ix2 n (0 : Fin 1) := ext2 rfl rfl
theorem idx_c2 : idx_main_call0_v2 (ix2 n (0 : Fin 1)) = ix1 n := ext1 rfl

/-- The norm, broadcast along the row: at every column of row n it is the square root of the sum of squares. -/
theorem norm_read (k : Fin 4) : val_main_v4 (F := Ideal) x1 (ix2 n k) = Ideal.sqrt (c0 + sqNorm x1 n) := by
  rewrite [val_main_v4_apply, idx_v4, val_main_v3_apply, val_main_call0_v2_apply, idx_c2, sqNorm_read]
  rfl

theorem idx_q0 : idx_main_v6 (idx_main_v7 (ix1 n)) = ix2 n (0 : Fin 4) := ext2 (Nat.div_one _) rfl
/-- Column 0 of the normalised quaternions, as a vector over the rows. -/
theorem q0_read : val_main_v7 (F := Ideal) x1 (ix1 n) = qn x1 n 0 := by
  rewrite [val_main_v7_apply, val_main_v6_apply, idx_q0, val_main_v5_apply, norm_read]
  rfl

theorem idx_q1 : idx_main_v8 (idx_main_v9 (ix1 n)) = ix2 n (1 : Fin 4) := ext2 (Nat.div_one _) rfl
/-- Column 1 of the normalised quaternions, as a vector over the rows. -/
theorem q1_read : val_main_v9 (F := Ideal) x1 (ix1 n) = qn x1 n 1 := by
  rewrite [val_main_v9_apply, val_main_v8_apply, idx_q1, val_main_v5_apply, norm_read]
  rfl

theorem idx_q2 : idx_main_v10 (idx_main_v11 (ix1 n)) = ix2 n (2 : Fin 4) := ext2 (Nat.div_one _) rfl
/-- Column 2 of the normalised quaternions, as a vector over the rows. -/
theorem q2_read : val_main_v11 (F := Ideal) x1 (ix1 n) = qn x1 n 2 := by
  rewrite [val_main_v11_apply, val_main_v10_apply, idx_q2, val_main_v5_apply, norm_read]
  rfl

theorem idx_q3 : idx_main_v12 (idx_main_v13 (ix1 n)) = ix2 n (3 : Fin 4) := ext2 (Nat.div_one _) rfl
/-- Column 3 of the normalised quaternions, as a vector over the rows. -/
theorem q3_read : val_main_v13 (F := Ideal) x1 (ix1 n) = qn x1 n 3 := by
  rewrite [val_main_v13_apply, val_main_v12_apply, idx_q3, val_main_v5_apply, norm_read]
  rfl

/-! ## The scales -/

theorem s_read (j : Fin 3) : val_main_v2 (F := Ideal) x0 (ix2 n j) = sn x0 n j := by
  rewrite [val_main_v2_apply, val_main_v1_apply, val_main_cst_apply, val_main_v0_apply]
  rfl

/-! ## The nine entries of the rotation matrix, each a vector over the rows -/

theorem r00_read : val_main_v20 (F := Ideal) x1 (ix1 n) = Rn x1 n 0 0 := by
  rewrite [val_main_v20_apply, val_main_v19_apply, val_main_cst_1_apply, val_main_v18_apply, val_main_v17_apply, val_main_cst_0_apply, val_main_v16_apply, val_main_v14_apply, val_main_v15_apply, q2_read, q3_read]
  rfl

theorem r01_read : val_main_v25 (F := Ideal) x1 (ix1 n) = Rn x1 n 0 1 := by
  rewrite [val_main_v25_apply, val_main_v24_apply, val_main_cst_2_apply, val_main_v23_apply, val_main_v21_apply, val_main_v22_apply, q1_read, q2_read, q0_read, q3_read]
  rfl

theorem r02_read : val_main_v30 (F := Ideal) x1 (ix1 n) = Rn x1 n 0 2 := by
  rewrite [val_main_v30_apply, val_main_v29_apply, val_main_cst_3_apply, val_main_v28_apply, val_main_v26_apply, val_main_v27_apply, q1_read, q3_read, q0_read, q2_read]
  rfl

theorem r10_read : val_main_v35 (F := Ideal) x1 (ix1 n) = Rn x1 n 1 0 := by
  rewrite [val_main_v35_apply, val_main_v34_apply, val_main_cst_4_apply, val_main_v33_apply, val_main_v31_apply, val_main_v32_apply, q1_read, q2_read, q0_read, q3_read]
  rfl

theorem r11_read : val_main_v42 (F := Ideal) x1 (ix1 n) = Rn x1 n 1 1 := by
  rewrite [val_main_v42_apply, val_main_v41_apply, val_main_cst_6_apply, val_main_v40_apply, val_main_v39_apply, val_main_cst_5_apply, val_main_v38_apply, val_main_v36_apply, val_main_v37_apply, q1_read, q3_read]
  rfl

theorem r12_read : val_main_v47 (F := Ideal) x1 (ix1 n) = Rn x1 n 1 2 := by
  rewrite [val_main_v47_apply, val_main_v46_apply, val_main_cst_7_apply, val_main_v45_apply, val_main_v43_apply, val_main_v44_apply, q2_read, q3_read, q0_read, q1_read]
  rfl

theorem r20_read : val_main_v52 (F := Ideal) x1 (ix1 n) = Rn x1 n 2 0 := by
  rewrite [val_main_v52_apply, val_main_v51_apply, val_main_cst_8_apply, val_main_v50_apply, val_main_v48_apply, val_main_v49_apply, q1_read, q3_read, q0_read, q2_read]
  rfl

theorem r21_read : val_main_v57 (F := Ideal) x1 (ix1 n) = Rn x1 n 2 1 := by
  rewrite [val_main_v57_apply, val_main_v56_apply, val_main_cst_9_apply, val_main_v55_apply, val_main_v53_apply, val_main_v54_apply, q2_read, q3_read, q0_read, q1_read]
  rfl

theorem r22_read : val_main_v64 (F := Ideal) x1 (ix1 n) = Rn x1 n 2 2 := by
  rewrite [val_main_v64_apply, val_main_v63_apply, val_main_cst_11_apply, val_main_v62_apply, val_main_v61_apply, val_main_cst_10_apply, val_main_v60_apply, val_main_v58_apply, val_main_v59_apply, q1_read, q2_read]
  rfl

/-! ## The nine entries joined as columns and reshaped to a 3 × 3 matrix per row -/

/-- Entry (i, j) of the 3 × 3 reshape sits in column 3 i + j of the nine. -/
theorem idx_75 (i j : Fin 3) (c : Fin 9) (h : c.val = 3 * i.val + j.val) : idx_main_v75 (ix3 n i j) = ix2 n c := by
  have hn := n.isLt
  have hi := i.isLt
  have hj := j.isLt
  refine ext2 ?_ ?_
  · show ((n.val * 3 + i.val) * 3 + j.val) / 9 = n.val
    omega
  · show ((n.val * 3 + i.val) * 3 + j.val) % 9 = c.val
    omega

/-- Column c of the nine joined columns is the c-th operand, read at its one column. -/
theorem v74_read (c : Fin 9) : val_main_v74 (F := Ideal) x1 (ix2 n c) =
    (![val_main_v65 (F := Ideal) x1, val_main_v66 (F := Ideal) x1, val_main_v67 (F := Ideal) x1, val_main_v68 (F := Ideal) x1, val_main_v69 (F := Ideal) x1, val_main_v70 (F := Ideal) x1, val_main_v71 (F := Ideal) x1, val_main_v72 (F := Ideal) x1, val_main_v73 (F := Ideal) x1] : Fin 9 → ((⟨2, ![4000000, 1]⟩ : Shape).Idx → EReal)) c (ix2 n (0 : Fin 1)) := by
  unfold val_main_v74
  exact concatenate_cols_apply ![val_main_v65 (F := Ideal) x1, val_main_v66 (F := Ideal) x1, val_main_v67 (F := Ideal) x1, val_main_v68 (F := Ideal) x1, val_main_v69 (F := Ideal) x1, val_main_v70 (F := Ideal) x1, val_main_v71 (F := Ideal) x1, val_main_v72 (F := Ideal) x1, val_main_v73 (F := Ideal) x1] _ rfl _ n c

theorem idx_65 : idx_main_v65 (ix2 n (0 : Fin 1)) = ix1 n := ext1 rfl
theorem R00 : val_main_v75 (F := Ideal) x1 (ix3 n (0 : Fin 3) (0 : Fin 3)) = Rn x1 n 0 0 := by
  rewrite [val_main_v75_apply, idx_75 n 0 0 0 rfl, v74_read, vec9_0, val_main_v65_apply, idx_65]
  exact r00_read x1 n

theorem idx_66 : idx_main_v66 (ix2 n (0 : Fin 1)) = ix1 n := ext1 rfl
theorem R01 : val_main_v75 (F := Ideal) x1 (ix3 n (0 : Fin 3) (1 : Fin 3)) = Rn x1 n 0 1 := by
  rewrite [val_main_v75_apply, idx_75 n 0 1 1 rfl, v74_read, vec9_1, val_main_v66_apply, idx_66]
  exact r01_read x1 n

theorem idx_67 : idx_main_v67 (ix2 n (0 : Fin 1)) = ix1 n := ext1 rfl
theorem R02 : val_main_v75 (F := Ideal) x1 (ix3 n (0 : Fin 3) (2 : Fin 3)) = Rn x1 n 0 2 := by
  rewrite [val_main_v75_apply, idx_75 n 0 2 2 rfl, v74_read, vec9_2, val_main_v67_apply, idx_67]
  exact r02_read x1 n

theorem idx_68 : idx_main_v68 (ix2 n (0 : Fin 1)) = ix1 n := ext1 rfl
theorem R10 : val_main_v75 (F := Ideal) x1 (ix3 n (1 : Fin 3) (0 : Fin 3)) = Rn x1 n 1 0 := by
  rewrite [val_main_v75_apply, idx_75 n 1 0 3 rfl, v74_read, vec9_3, val_main_v68_apply, idx_68]
  exact r10_read x1 n

theorem idx_69 : idx_main_v69 (ix2 n (0 : Fin 1)) = ix1 n := ext1 rfl
theorem R11 : val_main_v75 (F := Ideal) x1 (ix3 n (1 : Fin 3) (1 : Fin 3)) = Rn x1 n 1 1 := by
  rewrite [val_main_v75_apply, idx_75 n 1 1 4 rfl, v74_read, vec9_4, val_main_v69_apply, idx_69]
  exact r11_read x1 n

theorem idx_70 : idx_main_v70 (ix2 n (0 : Fin 1)) = ix1 n := ext1 rfl
theorem R12 : val_main_v75 (F := Ideal) x1 (ix3 n (1 : Fin 3) (2 : Fin 3)) = Rn x1 n 1 2 := by
  rewrite [val_main_v75_apply, idx_75 n 1 2 5 rfl, v74_read, vec9_5, val_main_v70_apply, idx_70]
  exact r12_read x1 n

theorem idx_71 : idx_main_v71 (ix2 n (0 : Fin 1)) = ix1 n := ext1 rfl
theorem R20 : val_main_v75 (F := Ideal) x1 (ix3 n (2 : Fin 3) (0 : Fin 3)) = Rn x1 n 2 0 := by
  rewrite [val_main_v75_apply, idx_75 n 2 0 6 rfl, v74_read, vec9_6, val_main_v71_apply, idx_71]
  exact r20_read x1 n

theorem idx_72 : idx_main_v72 (ix2 n (0 : Fin 1)) = ix1 n := ext1 rfl
theorem R21 : val_main_v75 (F := Ideal) x1 (ix3 n (2 : Fin 3) (1 : Fin 3)) = Rn x1 n 2 1 := by
  rewrite [val_main_v75_apply, idx_75 n 2 1 7 rfl, v74_read, vec9_7, val_main_v72_apply, idx_72]
  exact r21_read x1 n

theorem idx_73 : idx_main_v73 (ix2 n (0 : Fin 1)) = ix1 n := ext1 rfl
theorem R22 : val_main_v75 (F := Ideal) x1 (ix3 n (2 : Fin 3) (2 : Fin 3)) = Rn x1 n 2 2 := by
  rewrite [val_main_v75_apply, idx_75 n 2 2 8 rfl, v74_read, vec9_8, val_main_v73_apply, idx_73]
  exact r22_read x1 n

theorem R_read (i j : Fin 3) : val_main_v75 (F := Ideal) x1 (ix3 n i j) = Rn x1 n i j := by
  match i, j with
  | ⟨0, _⟩, ⟨0, _⟩ => exact R00 x1 n
  | ⟨0, _⟩, ⟨1, _⟩ => exact R01 x1 n
  | ⟨0, _⟩, ⟨2, _⟩ => exact R02 x1 n
  | ⟨1, _⟩, ⟨0, _⟩ => exact R10 x1 n
  | ⟨1, _⟩, ⟨1, _⟩ => exact R11 x1 n
  | ⟨1, _⟩, ⟨2, _⟩ => exact R12 x1 n
  | ⟨2, _⟩, ⟨0, _⟩ => exact R20 x1 n
  | ⟨2, _⟩, ⟨1, _⟩ => exact R21 x1 n
  | ⟨2, _⟩, ⟨2, _⟩ => exact R22 x1 n

/-! ## L = R · diag s -/

theorem idx_77 (i j : Fin 3) : idx_main_v77 (ix3 n i j) = ix3 n (0 : Fin 1) j := ext3 rfl rfl rfl
theorem idx_76 (j : Fin 3) : idx_main_v76 (ix3 n (0 : Fin 1) j) = ix2 n j := ext2 rfl rfl

theorem L_read (i j : Fin 3) : val_main_v78 (F := Ideal) x0 x1 (ix3 n i j) = scaled (sn x0 n) (qn x1 n) i j := by
  rewrite [val_main_v78_apply, R_read, val_main_v77_apply, idx_77, val_main_v76_apply, idx_76, s_read]
  rfl

/-! ## L · Lᵀ: the contraction over the second index of both factors -/

theorem idx_l79 (i k t : Fin 3) : lidx_main_v79 (ix3 n i k) t = ix3 n i t := ext3 rfl rfl rfl
theorem idx_r79 (i k t : Fin 3) : ridx_main_v79 (ix3 n i k) t = ix3 n k t := ext3 rfl rfl rfl

theorem G_read (i k : Fin 3) : val_main_v79 (F := Ideal) x0 x1 (ix3 n i k) = gram (sn x0 n) (qn x1 n) i k := by
  rewrite [val_main_v79_apply, Fin.sum_univ_three,
    idx_l79 n i k 0, idx_l79 n i k 1, idx_l79 n i k 2, idx_r79 n i k 0, idx_r79 n i k 1, idx_r79 n i k 2]
  rewrite [L_read x0 x1 n i 0, L_read x0 x1 n i 1, L_read x0 x1 n i 2, L_read x0 x1 n k 0, L_read x0 x1 n k 1, L_read x0 x1 n k 2]
  rfl

/-! ## The six entries of the upper triangle, joined as columns -/

theorem idx_92 : idx_main_v92 (ix2 n (0 : Fin 1)) = ix1 n := ext1 rfl
theorem idx_80 : idx_main_v80 (idx_main_v81 (ix1 n)) = ix3 n (0 : Fin 3) (0 : Fin 3) := ext3 (Nat.div_one _) rfl rfl
theorem out_92 : val_main_v92 (F := Ideal) x0 x1 (ix2 n (0 : Fin 1)) = gram (sn x0 n) (qn x1 n) 0 0 := by
  rewrite [val_main_v92_apply, idx_92, val_main_v81_apply, val_main_v80_apply, idx_80, G_read]
  rfl

theorem idx_93 : idx_main_v93 (ix2 n (0 : Fin 1)) = ix1 n := ext1 rfl
theorem idx_82 : idx_main_v82 (idx_main_v83 (ix1 n)) = ix3 n (0 : Fin 3) (1 : Fin 3) := ext3 (Nat.div_one _) rfl rfl
theorem out_93 : val_main_v93 (F := Ideal) x0 x1 (ix2 n (0 : Fin 1)) = gram (sn x0 n) (qn x1 n) 0 1 := by
  rewrite [val_main_v93_apply, idx_93, val_main_v83_apply, val_main_v82_apply, idx_82, G_read]
  rfl

theorem idx_94 : idx_main_v94 (ix2 n (0 : Fin 1)) = ix1 n := ext1 rfl
theorem idx_84 : idx_main_v84 (idx_main_v85 (ix1 n)) = ix3 n (0 : Fin 3) (2 : Fin 3) := ext3 (Nat.div_one _) rfl rfl
theorem out_94 : val_main_v94 (F := Ideal) x0 x1 (ix2 n (0 : Fin 1)) = gram (sn x0 n) (qn x1 n) 0 2 := by
  rewrite [val_main_v94_apply, idx_94, val_main_v85_apply, val_main_v84_apply, idx_84, G_read]
  rfl

theorem idx_95 : idx_main_v95 (ix2 n (0 : Fin 1)) = ix1 n := ext1 rfl
theorem idx_86 : idx_main_v86 (idx_main_v87 (ix1 n)) = ix3 n (1 : Fin 3) (1 : Fin 3) := ext3 (Nat.div_one _) rfl rfl
theorem out_95 : val_main_v95 (F := Ideal) x0 x1 (ix2 n (0 : Fin 1)) = gram (sn x0 n) (qn x1 n) 1 1 := by
  rewrite [val_main_v95_apply, idx_95, val_main_v87_apply, val_main_v86_apply, idx_86, G_read]
  rfl

theorem idx_96 : idx_main_v96 (ix2 n (0 : Fin 1)) = ix1 n := ext1 rfl
theorem idx_88 : idx_main_v88 (idx_main_v89 (ix1 n)) = ix3 n (1 : Fin 3) (2 : Fin 3) := ext3 (Nat.div_one _) rfl rfl
theorem out_96 : val_main_v96 (F := Ideal) x0 x1 (ix2 n (0 : Fin 1)) = gram (sn x0 n) (qn x1 n) 1 2 := by
  rewrite [val_main_v96_apply, idx_96, val_main_v89_apply, val_main_v88_apply, idx_88, G_read]
  rfl

theorem idx_97 : idx_main_v97 (ix2 n (0 : Fin 1)) = ix1 n := ext1 rfl
theorem idx_90 : idx_main_v90 (idx_main_v91 (ix1 n)) = ix3 n (2 : Fin 3) (2 : Fin 3) := ext3 (Nat.div_one _) rfl rfl
theorem out_97 : val_main_v97 (F := Ideal) x0 x1 (ix2 n (0 : Fin 1)) = gram (sn x0 n) (qn x1 n) 2 2 := by
  rewrite [val_main_v97_apply, idx_97, val_main_v91_apply, val_main_v90_apply, idx_90, G_read]
  rfl

/-- Column c of the six joined columns is the c-th operand, read at its one column. -/
theorem v98_read (c : Fin 6) : val_main_v98 (F := Ideal) x0 x1 (ix2 n c) =
    (![val_main_v92 (F := Ideal) x0 x1, val_main_v93 (F := Ideal) x0 x1, val_main_v94 (F := Ideal) x0 x1, val_main_v95 (F := Ideal) x0 x1, val_main_v96 (F := Ideal) x0 x1, val_main_v97 (F := Ideal) x0 x1] : Fin 6 → ((⟨2, ![4000000, 1]⟩ : Shape).Idx → EReal)) c (ix2 n (0 : Fin 1)) := by
  unfold val_main_v98
  exact concatenate_cols_apply ![val_main_v92 (F := Ideal) x0 x1, val_main_v93 (F := Ideal) x0 x1, val_main_v94 (F := Ideal) x0 x1, val_main_v95 (F := Ideal) x0 x1, val_main_v96 (F := Ideal) x0 x1, val_main_v97 (F := Ideal) x0 x1] _ rfl _ n c

/-- Position c of the target is entry (triRow c, triCol c) of L · Lᵀ. -/
theorem covDiv_eq (c : Fin 6) : covDiv x0 x1 n c = gram (sn x0 n) (qn x1 n) (triRow c) (triCol c) := rfl

theorem fin_92 : val_main_v98 (F := Ideal) x0 x1 (ix2 n (0 : Fin 6)) = covDiv x0 x1 n 0 := by
  rewrite [v98_read, vec6_0, covDiv_eq]
  exact out_92 x0 x1 n
theorem fin_93 : val_main_v98 (F := Ideal) x0 x1 (ix2 n (1 : Fin 6)) = covDiv x0 x1 n 1 := by
  rewrite [v98_read, vec6_1, covDiv_eq]
  exact out_93 x0 x1 n
theorem fin_94 : val_main_v98 (F := Ideal) x0 x1 (ix2 n (2 : Fin 6)) = covDiv x0 x1 n 2 := by
  rewrite [v98_read, vec6_2, covDiv_eq]
  exact out_94 x0 x1 n
theorem fin_95 : val_main_v98 (F := Ideal) x0 x1 (ix2 n (3 : Fin 6)) = covDiv x0 x1 n 3 := by
  rewrite [v98_read, vec6_3, covDiv_eq]
  exact out_95 x0 x1 n
theorem fin_96 : val_main_v98 (F := Ideal) x0 x1 (ix2 n (4 : Fin 6)) = covDiv x0 x1 n 4 := by
  rewrite [v98_read, vec6_4, covDiv_eq]
  exact out_96 x0 x1 n
theorem fin_97 : val_main_v98 (F := Ideal) x0 x1 (ix2 n (5 : Fin 6)) = covDiv x0 x1 n 5 := by
  rewrite [v98_read, vec6_5, covDiv_eq]
  exact out_97 x0 x1 n

end Reads

/-- Row n, position c of the reference's result is the covariance entry computed with the quotient by the square root. -/
theorem ref_value (x0 : (⟨Cert.ReferenceIdeal.S4000000x3, .f32⟩ : BufTy).Contents (Elt Ideal)) (x1 : (⟨Cert.ReferenceIdeal.S4000000x4, .f32⟩ : BufTy).Contents (Elt Ideal)) (n : Fin 4000000) (c : Fin 6) :
    Cert.ReferenceIdeal.Read.val_main_v98 (F := Ideal) x0 x1 (ix2 n c) = Cert.CovSpec.covDiv x0 x1 n c := by
  match c with
  | ⟨0, _⟩ => exact fin_92 x0 x1 n
  | ⟨1, _⟩ => exact fin_93 x0 x1 n
  | ⟨2, _⟩ => exact fin_94 x0 x1 n
  | ⟨3, _⟩ => exact fin_95 x0 x1 n
  | ⟨4, _⟩ => exact fin_96 x0 x1 n
  | ⟨5, _⟩ => exact fin_97 x0 x1 n

end Cert.ReferenceIdeal.RefValue

end
-- ==== Proof.PreDecode.lean ====
/-
  From the precondition to the one fact the value proof uses: every quaternion has a positive sum of squares.

  The precondition is a conjunction of three reductions by "and" over whole arrays; its third conjunct compares,
  row by row, the sum over the four components of the squared quaternion (started from the word of 0) with the
  word of 0, and asks "greater". At the extended reals that row sum is 0 + ∑ k, r(n, k)², the word of 0 is 0, and
  "greater" read back from its bit is the strict order.
-/
import proofs.«120002_j24979529793553_2_alg».proof.Proof.Gen.Pre_finite_inputs
import proofs.«120002_j24979529793553_2_alg».proof.Proof.CovSpec
import Idealize.ShloMosaic.Lib.ReduceAll
import Idealize.ShloMosaic.Lib.Pipeline.Value
import Idealize.ShloMosaic.Lib.ValueIdx
import Idealize.ShloMosaic.PureOps.Ideal.Laws

noncomputable section

namespace Cert.PreDecode

open Idealize.ShloMosaic Idealize.ShloMosaic.ValueIdx Cert.Pre_finite_inputs Cert.Pre_finite_inputs.Facts

/-- The scalar shape has one index. -/
instance : Subsingleton S_.Idx := ⟨fun a b => funext fun d => d.elim0⟩

/-- The host's sum over axis 1 of a [4000000, 4] array, at row n: the initial value plus the four entries of the row. -/
theorem row_sum (y : FVec Ideal S4000000x4 .f32) (init : FVec Ideal S_ .f32) (n : Fin 4000000) :
    Host.reduceAdd y init reducesTo_S4000000x4_S4000000_d1 h_S_ (ix1 n)
      = init (Shape.Idx.first h_S_) + ∑ k : Fin 4, y (ix2 n k) := by
  simp only [Host.reduceAdd, Ideal.hostReduceAdd_def]
  rw [Ideal.hostReduceAdd_single reducesTo_S4000000x4_S4000000_d1 (by decide)]
  refine congrArg (_ + ·) (Finset.sum_congr rfl fun k _ => ?_)
  exact congrArg y (funext fun a => Fin.ext (by match a with | ⟨0, _⟩ => rfl | ⟨1, _⟩ => rfl))

/-- A comparison bit that is 1 says its Boolean is true. -/
theorem ofBool_one {b : Bool} (h : BitVec.ofBool b = 1#1) : b = true := by cases b <;> first | rfl | exact absurd h (by decide)

/-- Under the precondition every quaternion has a positive sum of squares. -/
theorem sqNorm_pos (a : FVec Ideal S4000000x3 .f32) (r : FVec Ideal S4000000x4 .f32)
    (h : Cert.Pre_finite_inputs.fn (F := Ideal) a r = fun _ => 1#1) (n : Fin 4000000) : 0 < CovSpec.sqNorm r n := by
  have h0 : Cert.Pre_finite_inputs.fn (F := Ideal) a r ix0 = 1#1 := congrFun h ix0
  dsimp only [Cert.Pre_finite_inputs.fn] at h0
  obtain ⟨-, h13⟩ := IntOp.andi_eq_one.1 h0
  have hn := Host.reduce_andi_all _ _ _ _ ix0 h13 (ix1 n)
  rw [cmpf_apply, Ideal.cmpf_def] at hn
  have hlt := of_decide_eq_true (ofBool_one hn)
  rw [row_sum, broadcastInDim_apply _ _ _ (ix1 n) ix0 (fun d => d.elim0)] at hlt
  simp only [constant_apply, Ideal.ofBits_zero_f32, zero_add, mulf_apply] at hlt
  exact hlt

end Cert.PreDecode

end
-- ==== Proof.lean ====
/-
  The certificate of the Gaussian-covariance kernel against its jnp reference.

  Both programs compute, for each of 4,000,000 Gaussians, the upper triangle of (R · diag s)(R · diag s)ᵀ, R the rotation
  of the normalised quaternion and s the exponentials of the log-scales. They differ in layout (the kernel works on
  transposed arrays, 160000 Gaussians per grid point; the reference builds [n, 3, 3] arrays and contracts them) and in
  one operation: the kernel multiplies the quaternion by the reciprocal square root of its sum of squares, the
  reference divides it by the square root. On the extended reals those agree exactly where the sum of squares is
  positive — which the precondition states, since at an all-zero quaternion the reference divides 0 by 0 —, the
  reference's factor 1 on the scales and the zeros its sums start from are absorbed, and every other operation is
  the same one in the same order. The kernel's idealization rewrote nothing, so it preserves the kernel trivially.
-/
import proofs.«120002_j24979529793553_2_alg».proof.Defs
import proofs.«120002_j24979529793553_2_alg».proof.Proof.Gen.Kernel
import proofs.«120002_j24979529793553_2_alg».proof.Proof.Gen.Kernel.Skeleton
import proofs.«120002_j24979529793553_2_alg».proof.Proof.Gen.Kernel.Launch
import proofs.«120002_j24979529793553_2_alg».proof.Proof.Gen.Kernel.Points
import proofs.«120002_j24979529793553_2_alg».proof.Proof.Gen.Kernel.Frame
import proofs.«120002_j24979529793553_2_alg».proof.Proof.Gen.KernelIdeal
import proofs.«120002_j24979529793553_2_alg».proof.Proof.Gen.KernelIdeal.Skeleton
import proofs.«120002_j24979529793553_2_alg».proof.Proof.Gen.KernelIdeal.Launch
import proofs.«120002_j24979529793553_2_alg».proof.Proof.Gen.KernelIdeal.Points
import proofs.«120002_j24979529793553_2_alg».proof.Proof.Gen.KernelIdeal.Frame
import proofs.«120002_j24979529793553_2_alg».proof.Proof.Gen.ReferenceIdeal
import proofs.«120002_j24979529793553_2_alg».proof.Proof.RefRun
import proofs.«120002_j24979529793553_2_alg».proof.Proof.RefRead
import proofs.«120002_j24979529793553_2_alg».proof.Proof.RefFold
import proofs.«120002_j24979529793553_2_alg».proof.Proof.Gen.Pre_finite_inputs
import proofs.«120002_j24979529793553_2_alg».proof.Proof.CovSpec
import proofs.«120002_j24979529793553_2_alg».proof.Proof.KerValue
import proofs.«120002_j24979529793553_2_alg».proof.Proof.RefValue
import proofs.«120002_j24979529793553_2_alg».proof.Proof.PreDecode
import Idealize.ShloMosaic.Adequacy
import Idealize.ShloMosaic.Init

noncomputable section

namespace Cert.Proof

open Idealize.ShloMosaic Idealize.ShloMosaic.ValueIdx Idealize.SL.Sem

/-- The kernel as printed runs, faults nowhere and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- At the extended reals, from memories agreeing on the arguments, both programs end with the same array: the
    kernel's at the product form of the covariance function, the reference's at the quotient form, and the two forms
    are one array because the precondition makes every quaternion's sum of squares positive. -/
theorem algebraic : Cert.algebraic_KernelIdeal_ReferenceIdeal := by
  intro m ρ m' ρ' hpre hagree
  refine ⟨fun c => fun i => Cert.CovSpec.covMul (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (i 0) (i 1),
    Cert.KernelIdeal.KerValue.run m ρ, ?_⟩
  refine (θ_run Cert.ReferenceIdeal.defs _ _).mono (fun _ h c => ⟨(h c).1.trans ?_, (h c).2⟩)
    (Cert.ReferenceIdeal.Fold.run_value (F := Ideal) m' ρ')
  rw [(hagree c).1, (hagree c).2]
  funext i
  obtain ⟨n, cc, rfl⟩ : ∃ (n : Fin 4000000) (cc : Fin 6), i = ix2 n cc := ⟨i 0, i 1, eq_ix2 i⟩
  refine (Cert.ReferenceIdeal.RefValue.ref_value _ _ n cc).trans ?_
  exact (Cert.CovSpec.covMul_eq_covDiv _ _ (Cert.PreDecode.sqNorm_pos _ _ (hpre c)) n cc).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
